-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S8192 : Shape := ⟨1, ![8192]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S8192x4096 .f32) (main_arg1 : FVec F S8192 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8192 .f32 := Host.absf main_arg1
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  main_v8
-- ==== Kernel.lean ====
abbrev S8192x4096 : Shape := ⟨2, ![8192, 4096]⟩
abbrev S8192 : Shape := ⟨1, ![8192]⟩
abbrev S8192x1 : Shape := ⟨2, ![8192, 1]⟩
abbrev S8192x12288 : Shape := ⟨2, ![8192, 12288]⟩
abbrev S256x4096 : Shape := ⟨2, ![256, 4096]⟩
abbrev S256x1 : Shape := ⟨2, ![256, 1]⟩
abbrev S256x12288 : Shape := ⟨2, ![256, 12288]⟩
abbrev S256 : Shape := ⟨1, ![256]⟩
abbrev S256x8192 : Shape := ⟨2, ![256, 8192]⟩

abbrev nBuf : Space → Nat
  | .hbm => 4
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S8192, .f32⟩
  | .hbm, ⟨2, _⟩ => ⟨S8192x1, .f32⟩
  | .hbm, ⟨3, _⟩ => ⟨S8192x12288, .f32⟩
  | .local _ .vmem, ⟨0, _⟩ => ⟨S256x4096, .f32⟩
  | .local _ .vmem, ⟨1, _⟩ => ⟨S256x4096, .f32⟩
  | .local _ .vmem, ⟨2, _⟩ => ⟨S256x1, .f32⟩
  | .local _ .vmem, ⟨3, _⟩ => ⟨S256x1, .f32⟩
  | .local _ .vmem, ⟨4, _⟩ => ⟨S256x12288, .f32⟩
  | .local _ .vmem, ⟨5, _⟩ => ⟨S256x12288, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def k0_mult1 (i : grid0.Coords) : BitVec 32 :=
  let arg0 : BitVec 32 := BitVec.ofNat 32 (i 0).val
  let c256_i32 : BitVec 32 := 256#32
  let v0 : BitVec 32 := Scalar.muli arg0 c256_i32
  v0
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x12288 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S8192_S8192x1_0 : S8192.BroadcastsInDim S8192x1 (![0] : Fin 1 → Fin S8192x1.rank)
  inb_S256x4096_S256x4096_0_0 : ∀ a, (![0, 0] : Fin 2 → Nat) a + S256x4096.size a ≤ S256x4096.size a
  h_S256x4096 : 0 < S256x4096.numel
  inb_S256x1_S256x1_0_0 : ∀ a, (![0, 0] : Fin 2 → Nat) a + S256x1.size a ≤ S256x1.size a
  h_S256x1 : 0 < S256x1.numel
  shapeCasts_S256x1_S256x1 : S256x1.ShapeCasts S256x1
  slices_S256x4096_o0_0_S256x1 : S256x4096.Slices ![0, 0] S256x1
  reduces_S256x4096_S256 : S256x4096.Reduces [1] S256
  shapeCasts_S256_S256x1 : S256.ShapeCasts S256x1
  iota_S256x4096_d1_w32 : S256x4096.Iotas .tc 32 [1]
  broadcasts_S256x1_S256x4096 : S256x1.Broadcasts S256x4096
  inb_S256x12288_S256x4096_0_0 : ∀ a, (![0, 0] : Fin 2 → Nat) a + S256x4096.size a ≤ S256x12288.size a
  iota_S256x1_d0_w32 : S256x1.Iotas .tc 32 [0]
  iota_S256x8192_d1_w32 : S256x8192.Iotas .tc 32 [1]
  broadcasts_S256x1_S256x8192 : S256x1.Broadcasts S256x8192
  inb_S256x12288_S256x8192_0_4096 : ∀ a, (![0, 4096] : Fin 2 → Nat) a + S256x8192.size a ≤ S256x12288.size a
  h_S256x8192 : 0 < S256x8192.numel
  hrank0 : 0 < grid0.rank
  k0_mult1_dvd : ∀ i : grid0.Coords, 256 ∣ (k0_mult1 i).toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S8192x1.size a
  hwx0_1 : ∀ i : grid0.Coords, EltTy.bits .f32 = 32 ∨ (Rect.block (s := S8192x1) S256x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x12288.size a ≤ S8192x12288.size a
  hwx0_2 : ∀ i : grid0.Coords, EltTy.bits .f32 = 32 ∨ (Rect.block (s := S8192x12288) S256x12288.size (cc0_transform_2 i) (hinb0_2 i)).WholeWords (EltTy.packing .f32)

variable [Facts₀]

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x12288.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S8192 : Shape := ⟨1, ![8192]⟩
abbrev S8192x1 : Shape := ⟨2, ![8192, 1]⟩
abbrev S8192x4095 : Shape := ⟨2, ![8192, 4095]⟩
abbrev S_ : Shape := ⟨0, ![]⟩
abbrev S1 : Shape := ⟨1, ![1]⟩
abbrev S8192x8192 : Shape := ⟨2, ![8192, 8192]⟩
abbrev S8192x12288 : Shape := ⟨2, ![8192, 12288]⟩

abbrev nBuf : Space → Nat
  | .hbm => 65
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192, .f32⟩
  | .hbm, ⟨2, _⟩ => ⟨S8192x1, .f32⟩
  | .hbm, ⟨3, _⟩ => ⟨S8192, .f32⟩
  | .hbm, ⟨4, _⟩ => ⟨S8192x4095, .f32⟩
  | .hbm, ⟨5, _⟩ => ⟨S8192x4095, .f32⟩
  | .hbm, ⟨6, _⟩ => ⟨S_, .f32⟩
  | .hbm, ⟨7, _⟩ => ⟨S8192, .f32⟩
  | .hbm, ⟨8, _⟩ => ⟨S8192, .f32⟩
  | .hbm, ⟨9, _⟩ => ⟨S8192, .f32⟩
  | .hbm, ⟨10, _⟩ => ⟨S_, .f32⟩
  | .hbm, ⟨11, _⟩ => ⟨S8192, .f32⟩
  | .hbm, ⟨12, _⟩ => ⟨S8192, .i1⟩
  | .hbm, ⟨13, _⟩ => ⟨S8192, .i1⟩
  | .hbm, ⟨14, _⟩ => ⟨S_, .f32⟩
  | .hbm, ⟨15, _⟩ => ⟨S8192, .f32⟩
  | .hbm, ⟨16, _⟩ => ⟨S8192, .i1⟩
  | .hbm, ⟨17, _⟩ => ⟨S8192, .i1⟩
  | .hbm, ⟨18, _⟩ => ⟨S_, .f32⟩
  | .hbm, ⟨19, _⟩ => ⟨S8192, .f32⟩
  | .hbm, ⟨20, _⟩ => ⟨S8192, .f32⟩
  | .hbm, ⟨21, _⟩ => ⟨S8192, .f32⟩
  | .hbm, ⟨22, _⟩ => ⟨S8192, .i1⟩
  | .hbm, ⟨23, _⟩ => ⟨S8192, .f32⟩
  | .hbm, ⟨24, _⟩ => ⟨S8192, .f32⟩
  | .hbm, ⟨25, _⟩ => ⟨S_, .f32⟩
  | .hbm, ⟨26, _⟩ => ⟨S8192, .f32⟩
  | .hbm, ⟨27, _⟩ => ⟨S8192, .f32⟩
  | .hbm, ⟨28, _⟩ => ⟨S_, .f32⟩
  | .hbm, ⟨29, _⟩ => ⟨S8192, .f32⟩
  | .hbm, ⟨30, _⟩ => ⟨S8192, .f32⟩
  | .hbm, ⟨31, _⟩ => ⟨S8192, .f32⟩
  | .hbm, ⟨32, _⟩ => ⟨S8192, .f32⟩
  | .hbm, ⟨33, _⟩ => ⟨S_, .f32⟩
  | .hbm, ⟨34, _⟩ => ⟨S_, .f32⟩
  | .hbm, ⟨35, _⟩ => ⟨S8192, .f32⟩
  | .hbm, ⟨36, _⟩ => ⟨S8192, .f32⟩
  | .hbm, ⟨37, _⟩ => ⟨S_, .f32⟩
  | .hbm, ⟨38, _⟩ => ⟨S_, .f32⟩
  | .hbm, ⟨39, _⟩ => ⟨S8192, .f32⟩
  | .hbm, ⟨40, _⟩ => ⟨S8192, .f32⟩
  | .hbm, ⟨41, _⟩ => ⟨S_, .f32⟩
  | .hbm, ⟨42, _⟩ => ⟨S_, .f32⟩
  | .hbm, ⟨43, _⟩ => ⟨S8192, .f32⟩
  | .hbm, ⟨44, _⟩ => ⟨S8192, .f32⟩
  | .hbm, ⟨45, _⟩ => ⟨S8192x1, .f32⟩
  | .hbm, ⟨46, _⟩ => ⟨S8192x4096, .f32⟩
  | .hbm, ⟨47, _⟩ => ⟨S8192x4096, .f32⟩
  | .hbm, ⟨48, _⟩ => ⟨S_, .i32⟩
  | .hbm, ⟨49, _⟩ => ⟨S1, .i32⟩
  | .hbm, ⟨50, _⟩ => ⟨S8192x4096, .f32⟩
  | .hbm, ⟨51, _⟩ => ⟨S_, .f32⟩
  | .hbm, ⟨52, _⟩ => ⟨S8192, .f32⟩
  | .hbm, ⟨53, _⟩ => ⟨S8192x8192, .i32⟩
  | .hbm, ⟨54, _⟩ => ⟨S8192x8192, .i32⟩
  | .hbm, ⟨55, _⟩ => ⟨S_, .i32⟩
  | .hbm, ⟨56, _⟩ => ⟨S8192x8192, .i32⟩
  | .hbm, ⟨57, _⟩ => ⟨S8192x8192, .i32⟩
  | .hbm, ⟨58, _⟩ => ⟨S8192x8192, .i1⟩
  | .hbm, ⟨59, _⟩ => ⟨S8192x1, .f32⟩
  | .hbm, ⟨60, _⟩ => ⟨S_, .f32⟩
  | .hbm, ⟨61, _⟩ => ⟨S8192x8192, .f32⟩
  | .hbm, ⟨62, _⟩ => ⟨S8192x8192, .f32⟩
  | .hbm, ⟨63, _⟩ => ⟨S8192x8192, .f32⟩
  | .hbm, ⟨64, _⟩ => ⟨S8192x12288, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_5 : Ref sig .tc := ⟨.hbm, 33, rfl⟩
abbrev main_call1_v0 : Ref sig .tc := ⟨.hbm, 34, rfl⟩
abbrev main_call1_v1 : Ref sig .tc := ⟨.hbm, 35, rfl⟩
abbrev main_v25 : Ref sig .tc := ⟨.hbm, 36, rfl⟩
abbrev main_cst_6 : Ref sig .tc := ⟨.hbm, 37, rfl⟩
abbrev main_call2_v0 : Ref sig .tc := ⟨.hbm, 38, rfl⟩
abbrev main_call2_v1 : Ref sig .tc := ⟨.hbm, 39, rfl⟩
abbrev main_v26 : Ref sig .tc := ⟨.hbm, 40, rfl⟩
abbrev main_cst_7 : Ref sig .tc := ⟨.hbm, 41, rfl⟩
abbrev main_call3_v0 : Ref sig .tc := ⟨.hbm, 42, rfl⟩
abbrev main_call3_v1 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c : Ref sig .tc := ⟨.hbm, 48, rfl⟩
abbrev main_v31 : Ref sig .tc := ⟨.hbm, 49, rfl⟩
abbrev main_v32 : Ref sig .tc := ⟨.hbm, 50, rfl⟩
abbrev main_call4_cst : Ref sig .tc := ⟨.hbm, 51, rfl⟩
abbrev main_call4_v0 : Ref sig .tc := ⟨.hbm, 52, rfl⟩
abbrev main_call4_v1 : Ref sig .tc := ⟨.hbm, 53, rfl⟩
abbrev main_call4_v2 : Ref sig .tc := ⟨.hbm, 54, rfl⟩
abbrev main_call4_c : Ref sig .tc := ⟨.hbm, 55, rfl⟩
abbrev main_call4_v3 : Ref sig .tc := ⟨.hbm, 56, rfl⟩
abbrev main_call4_v4 : Ref sig .tc := ⟨.hbm, 57, rfl⟩
abbrev main_call4_v5 : Ref sig .tc := ⟨.hbm, 58, rfl⟩
abbrev main_call4_v6 : Ref sig .tc := ⟨.hbm, 59, rfl⟩
abbrev main_call4_cst_0 : Ref sig .tc := ⟨.hbm, 60, rfl⟩
abbrev main_call4_call0_v0 : Ref sig .tc := ⟨.hbm, 61, rfl⟩
abbrev main_call4_call0_v1 : Ref sig .tc := ⟨.hbm, 62, rfl⟩
abbrev main_v33 : Ref sig .tc := ⟨.hbm, 63, rfl⟩
abbrev main_v34 : Ref sig .tc := ⟨.hbm, 64, rfl⟩

abbrev nD : Nat := 1
abbrev τ : Topo := Topo.v7x

variable {F : FTy → Type} [FloatOps F]

class Facts₀ : Prop where
  slices_S8192x4096_S8192x1_0_0 : S8192x4096.Slices ![0, 0] S8192x1
  shapeCasts_S8192x1_S8192 : S8192x1.ShapeCasts S8192
  slices_S8192x4096_S8192x4095_0_1 : S8192x4096.Slices ![0, 1] S8192x4095
  reducesTo_S8192x4095_S8192_d1 : S8192x4095.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x4096_0_1 : S8192x1.BroadcastsInDim S8192x4096 (![0, 1] : Fin 2 → Fin S8192x4096.rank)
  bcast_S_S1 : S_.BroadcastsInDim S1 (![] : Fin 0 → Fin S1.rank)
  pads_S8192_S8192_000 : S8192.Pads (![0] : Fin 1 → Nat) ![0] ![0] S8192
  bcast_S_S8192x8192 : S_.BroadcastsInDim S8192x8192 (![] : Fin 0 → Fin S8192x8192.rank)
  bcast_S8192x1_S8192x8192_0_1 : S8192x1.BroadcastsInDim S8192x8192 (![0, 1] : Fin 2 → Fin S8192x8192.rank)
  concatenates_S8192x4096_S8192x8192_S8192x12288_d1 : Shape.Concatenates [S8192x4096, S8192x8192] S8192x12288 1
  scatter_S8192x4096_S1_S8192_0_1_1_0_wf : ScatterDims.WF S8192x4096 S1 S8192 [0] [1] [1] 0

variable [Facts₀]

def scatter_S8192x4096_S1_S8192_0_1_1_0 : ScatterDims S8192x4096 S1 S8192 where
  updateWindowDims := [0]
  insertedWindowDims := [1]
  scatterDimsToOperandDims := [1]
  indexVectorDim := 0
  wf := scatter_S8192x4096_S1_S8192_0_1_1_0_wf

class Facts : Prop extends Facts₀ where

variable [Facts]
-- ==== Proof.Spec.lean ====
/-
  The ReLU transformer of a zonotope, row by row, on the extended reals.

  A row of the layer is a centre c (column 0) and 4095 error coefficients; its box is [l, u] = [c - r, c + r] with
  the radius r the sum of the coefficients' absolute values. A row whose box lies below zero (u ≤ 0) is DEAD and is
  zeroed; a row whose box straddles zero (not dead, l < 0) is CROSSING: it is scaled by the row's λ and receives a fresh
  error term newEps, which is also added to its centre; any other row is kept. The result has the 4096 relaxed columns
  followed by 8192 fresh columns holding diag(newEps).

  Everything downstream of (c, r, λ) is one function of these three extended reals. The two programs differ in how they
  reach r: one sums all 4096 absolute values and takes the centre's away, the other sums the 4095 coefficients'. On a row
  of finite numbers these agree (radK_eq_radR); at an infinite entry they need not, which is where finiteness of the
  inputs is used.
-/
import Idealize.ShloMosaic.PureOps.Ideal
import Idealize.ShloMosaic.PureOps.Ideal.Laws
import Idealize.ShloMosaic.Lib.ValueIdx

noncomputable section

open scoped BigOperators

namespace Cert.Zono

open Idealize.ShloMosaic Idealize.ShloMosaic.ValueIdx

/-- The three float words the programs mention: 0, 1 and 1/2, as the extended reals their patterns denote. -/
def zero : EReal := Ideal.ofBits .f32 0x00000000#32
def one : EReal := Ideal.ofBits .f32 0x3F800000#32
def half : EReal := Ideal.ofBits .f32 0x3F000000#32

theorem zero_eq : zero = 0 := Ideal.ofBits_zero_f32

/-- The box's lower and upper bounds from the centre and the radius. -/
def lo (c r : EReal) : EReal := c - r
def hi (c r : EReal) : EReal := c + r

/-- The row is dead: its upper bound is at most zero. -/
def dead (c r : EReal) : BitVec 1 := Ideal.cmp .ole (hi c r) zero

/-- The row is crossing: not dead, and its lower bound is below zero. -/
def crossing (c r : EReal) : BitVec 1 :=
  IntOp.andi (IntOp.xori (dead c r) 1#1) (Ideal.cmp .olt (lo c r) zero)

/-- The fresh error coefficient of a row: for a crossing row (-l)·λ/2 when λ ≥ u/(u - 1) and u·(1 - λ) otherwise; zero for any
    other row. -/
def newEps (c r lam : EReal) : EReal :=
  Scalar.select (crossing c r)
    (Scalar.select (Ideal.cmp .oge lam (Ideal.div (hi c r) (hi c r - one)))
      ((zero - lo c r) * lam * half) (hi c r * (one - lam)))
    zero

/-- The factor a row is multiplied by: 0 when dead, λ when crossing, 1 otherwise. -/
def scale (c r lam : EReal) : EReal :=
  Scalar.select (dead c r) zero (Scalar.select (crossing c r) lam one)

/-- The absolute value as the ideal float operation has it. -/
def absE (a : EReal) : EReal := max a (-a)

/-- The result at row R, column J, from the row's radius rad R: in the first 4096 columns the scaled entry, the centre
    column shifted by the fresh coefficient; in the last 8192 the fresh coefficient on the diagonal and zero elsewhere. -/
def outAt (rad : Fin 8192 → EReal) (x : (⟨2, ![8192, 4096]⟩ : Shape).Idx → EReal)
    (lam : (⟨1, ![8192]⟩ : Shape).Idx → EReal) (R : Fin 8192) (J : Fin 12288) : EReal :=
  if h : J.val < 4096 then
    x (ix2 R ⟨J.val, h⟩) * scale (x (ix2 R 0)) (rad R) (lam (ix1 R))
      + (if J.val = 0 then newEps (x (ix2 R 0)) (rad R) (lam (ix1 R)) else zero)
  else if J.val - 4096 = R.val then newEps (x (ix2 R 0)) (rad R) (lam (ix1 R)) else zero

/-- The whole result array. -/
def out (rad : Fin 8192 → EReal) (x : (⟨2, ![8192, 4096]⟩ : Shape).Idx → EReal)
    (lam : (⟨1, ![8192]⟩ : Shape).Idx → EReal) : (⟨2, ![8192, 12288]⟩ : Shape).Idx → EReal :=
  fun j => outAt rad x lam (j 0) (j 1)

/-- The radius as the sum of ALL absolute values of the row less the centre's. -/
def radK (x : (⟨2, ![8192, 4096]⟩ : Shape).Idx → EReal) (R : Fin 8192) : EReal :=
  (∑ k : Fin 4096, absE (x (ix2 R k))) - absE (x (ix2 R 0))

/-- The radius as zero plus the sum of the 4095 coefficients' absolute values. -/
def radR (x : (⟨2, ![8192, 4096]⟩ : Shape).Idx → EReal) (R : Fin 8192) : EReal :=
  zero + ∑ k : Fin 4095, absE (x (ix2 R k.succ))

/-- A finite sum of reals, each seen as an extended real, is the real sum seen as one. -/
theorem coe_sum {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem absE_coe (a : ℝ) : absE (a : EReal) = ((|a| : ℝ) : EReal) := by
  unfold absE
  rw [← EReal.coe_neg, abs_eq_max_neg]
  exact (EReal.coe_strictMono.monotone.map_max).symm

/-- On a row of finite numbers the two radii agree: (|x₀| + S) - |x₀| = S when |x₀| and S are real. -/
theorem radK_eq_radR (x : (⟨2, ![8192, 4096]⟩ : Shape).Idx → EReal) (hx : ∀ i, ∃ a : ℝ, x i = (a : EReal)) :
    radK x = radR x := by
  funext R
  choose a ha using hx
  unfold radK radR
  rw [zero_eq, zero_add, Fin.sum_univ_succ]
  simp only [ha, absE_coe]
  rw [coe_sum, ← EReal.coe_add, ← EReal.coe_sub]
  congr 1
  ring

end Cert.Zono

end
-- ==== Proof.BlockLayout.lean ====
/-
  Layout operations of a 256-row block read at explicit coordinates (p, k): the centre column as a one-column slice, a
  per-row vector seen as a column, a column spread along a row, a lane sum as a sum over the row's coordinates, and the
  32-bit words of small numbers compared as numbers.
-/
import Idealize.ShloMosaic.PureOps.Ideal.Laws
import Idealize.ShloMosaic.Lib.ValueIdx
import Idealize.ShloMosaic.Lib.Pipeline.Value

noncomputable section

open scoped BigOperators

namespace Cert.BlockLayout

open Idealize.ShloMosaic Idealize.ShloMosaic.ValueIdx

variable {α : Type}

/-- The one-column slice at offsets (0, 0) of an a × b block reads, at row p, the block's entry (p, 0). -/
theorem slice_col0 {a b : ℕ} (hb : 0 < b) (v : (⟨2, ![a, b]⟩ : Shape).Idx → α)
    (h : (⟨2, ![a, b]⟩ : Shape).Slices ![0, 0] ⟨2, ![a, 1]⟩) (p : Fin a) (q : Fin 1) :
    extractStridedSlice ⟨2, ![a, 1]⟩ ![0, 0] v h (ix2 p q) = v (ix2 p ⟨0, hb⟩) := by
  refine extractStridedSlice_apply _ v h _ _ fun d => ?_
  have hq := q.isLt
  match d with
  | ⟨0, _⟩ => show p.val = 0 + p.val; omega
  | ⟨1, _⟩ => show 0 = 0 + q.val; omega

/-- A length-a vector cast to an a × 1 column reads, at row p, the vector's entry p. -/
theorem cast_col {a : ℕ} (v : (⟨1, ![a]⟩ : Shape).Idx → α) (h : (⟨1, ![a]⟩ : Shape).ShapeCasts ⟨2, ![a, 1]⟩)
    (p : Fin a) (q : Fin 1) : shapeCast ⟨2, ![a, 1]⟩ v h (ix2 p q) = v (ix1 p) := by
  refine shapeCast_apply v h _ _ ?_
  rw [Shape.rowMajor_val_one, Shape.rowMajor_val_two]
  have hq := q.isLt
  show p.val = p.val * 1 + q.val
  omega

/-- A 256 × 1 column spread to 256 × b reads, at (p, k), the column's entry (p, 0). -/
theorem spread_col {b : ℕ} (v : (⟨2, ![256, 1]⟩ : Shape).Idx → α)
    (h : (⟨2, ![256, 1]⟩ : Shape).Broadcasts ⟨2, ![256, b]⟩) (p : Fin 256) (k : Fin b) :
    broadcastTo ⟨2, ![256, b]⟩ v h (ix2 p k) = v (ix2 p 0) := by
  refine broadcastTo_apply v h _ _ fun d => ?_
  match d with
  | ⟨0, _⟩ =>
    show p.val = if (256 : ℕ) = 1 then 0 else p.val
    rw [if_neg (by decide)]
  | ⟨1, _⟩ =>
    show (0 : ℕ) = if (1 : ℕ) = 1 then 0 else k.val
    rw [if_pos rfl]

/-- The sum over the lanes of a 256 × 4096 block, at row p, is the sum over the 4096 coordinates of the row. -/
theorem row_sum (v : FVec Ideal ⟨2, ![256, 4096]⟩ .f32) (h : Shape.Reduces ⟨2, ![256, 4096]⟩ [1] ⟨1, ![256]⟩)
    (hφ : FKind.Formats .f32) (hacc : (0x00000000#32 : BitVec 32) = 0x00000000#32) (p : Fin 256) :
    multiReduction .add [1] ⟨1, ![256]⟩ v 0x00000000#32 h hφ hacc (ix1 p) = ∑ k : Fin 4096, v (ix2 p k) := by
  refine (Ideal.multiReduction_add_single v 0x00000000#32 h hφ hacc (ix1 p)).trans ?_
  refine Finset.sum_congr rfl fun k _ => congrArg v ?_
  funext d
  match d with
  | ⟨0, _⟩ => exact Fin.ext rfl
  | ⟨1, _⟩ => exact Fin.ext rfl

/-- Two numbers below 2^32 have equal 32-bit words exactly when they are equal. -/
theorem word_eq_iff {a b : ℕ} (ha : a < 2 ^ 32) (hb : b < 2 ^ 32) : BitVec.ofNat 32 a = BitVec.ofNat 32 b ↔ a = b := by
  constructor
  · intro h
    have := congrArg BitVec.toNat h
    rwa [BitVec.toNat_ofNat, BitVec.toNat_ofNat, Nat.mod_eq_of_lt ha, Nat.mod_eq_of_lt hb] at this
  · rintro rfl; rfl

/-- The word of the row offset 256·i plus the word of p is the word of 256·i + p. -/
theorem row_word (i p : ℕ) :
    IntOp.addi (Scalar.muli (BitVec.ofNat 32 i) 256#32) (BitVec.ofNat 32 p) = BitVec.ofNat 32 (256 * i + p) := by
  show BitVec.ofNat 32 i * 256#32 + BitVec.ofNat 32 p = _
  apply BitVec.eq_of_toNat_eq
  simp only [BitVec.toNat_add, BitVec.toNat_mul, BitVec.toNat_ofNat]
  omega

/-- A select on the equality of two small numbers' words is the if on the numbers. -/
theorem select_word_eq {β : Type} {a b : ℕ} (ha : a < 2 ^ 32) (hb : b < 2 ^ 32) (x y : β) :
    Scalar.select (IntOp.cmpi .eq (BitVec.ofNat 32 a) (BitVec.ofNat 32 b)) x y = if a = b then x else y := by
  show (if BitVec.ofBool (BitVec.ofNat 32 a == BitVec.ofNat 32 b) = 1#1 then x else y) = _
  by_cases hab : a = b
  · subst hab; simp
  · have hw : (BitVec.ofNat 32 a == BitVec.ofNat 32 b) = false :=
      beq_eq_false_iff_ne.2 fun h => hab ((word_eq_iff ha hb).1 h)
    rw [hw, if_neg hab]
    exact if_neg (by decide)

end Cert.BlockLayout

end
-- ==== Proof.KernelPayload.lean ====
/-
  What the kernel's body computes from one block of 256 rows, entry by entry, on the extended reals.

  For row p of the block, with centre c = x0 (p, 0), λ = x1 (p, 0) and radius r = (Σ_k |x0 (p, k)|) - |c|, the body's
  per-row values are the box bounds, the dead and crossing flags, the fresh coefficient and the row's factor of the
  specification; what it stores in the first 4096 columns is x0 (p, k) · factor, plus the fresh coefficient in column 0;
  what it stores in the last 8192 columns is the fresh coefficient in the column whose number is the row's number in the
  whole array, 256 · i + p at grid point i, and zero elsewhere.
-/
import proofs.«104700_j43525198577802_2_alg».proof.Proof.Gen.KernelIdeal.Skeleton
import proofs.«104700_j43525198577802_2_alg».proof.Proof.Spec
import proofs.«104700_j43525198577802_2_alg».proof.Proof.BlockLayout

noncomputable section

open scoped BigOperators

namespace Cert.KernelIdeal.Payload

open Cert.KernelIdeal Cert.KernelIdeal.Gen Idealize.ShloMosaic Idealize.ShloMosaic.ValueIdx Cert.BlockLayout
open Cert.Zono (zero one half lo hi dead crossing newEps scale absE)

/-- The radius of row p of a block as the body computes it: all 4096 absolute values summed, the centre's taken away. -/
def rad (x0 : Vec Ideal S256x4096 .f32) (p : Fin 256) : EReal :=
  (∑ k : Fin 4096, absE (x0 (ix2 p k))) - absE (x0 (ix2 p 0))

/-- The fresh coefficient from the flags and bounds already computed. -/
def epsOf (cr : BitVec 1) (lam u l : EReal) : EReal :=
  Scalar.select cr (Scalar.select (Ideal.cmp .oge lam (Ideal.div u (u - one))) ((zero - l) * lam * half) (u * (one - lam))) zero

/-- The row's factor from the flags already computed. -/
def scaleOf (d cr : BitVec 1) (lam : EReal) : EReal := Scalar.select d zero (Scalar.select cr lam one)

variable (x0 : Vec Ideal S256x4096 .f32) (x1 : Vec Ideal S256x1 .f32) (p : Fin 256)

/-- The centre column. -/
theorem centre : k0_pay4 x0 (ix2 p 0) = x0 (ix2 p 0) := by
  unfold k0_pay4
  exact slice_col0 (by decide) x0 _ p 0

/-- The row's λ. -/
theorem lam_at : k0_pay3 x1 (ix2 p 0) = x1 (ix2 p 0) := by
  unfold k0_pay3
  exact congrFun (shapeCast_self x1 _) _

/-- The radius. -/
theorem radius : k0_pay5 x0 (ix2 p 0) = rad x0 p := by
  have e1 : shapeCast S256x1 (multiReduction (F := Ideal) .add [1] S256 (absf x0) 0x00000000#32 reduces_S256x4096_S256 (.inl rfl) rfl)
      shapeCasts_S256_S256x1 (ix2 p 0) = ∑ k : Fin 4096, absE (x0 (ix2 p k)) :=
    (cast_col _ _ p 0).trans (row_sum (absf x0) _ _ _ p)
  have e2 : absf (k0_pay4 x0) (ix2 p 0) = absE (x0 (ix2 p 0)) := congrArg absE (centre x0 p)
  exact congrArg₂ (fun a b : EReal => a - b) e1 e2

/-- The lower bound c - r. -/
theorem lower : k0_pay6 x0 (ix2 p 0) = lo (x0 (ix2 p 0)) (rad x0 p) :=
  congrArg₂ (fun a b : EReal => a - b) (centre x0 p) (radius x0 p)

/-- The upper bound c + r. -/
theorem upper : k0_pay7 x0 (ix2 p 0) = hi (x0 (ix2 p 0)) (rad x0 p) :=
  congrArg₂ (fun a b : EReal => a + b) (centre x0 p) (radius x0 p)

/-- The dead flag. -/
theorem dead_at : k0_pay8 x0 (ix2 p 0) = dead (x0 (ix2 p 0)) (rad x0 p) :=
  congrArg (fun a : EReal => Ideal.cmp .ole a zero) (upper x0 p)

/-- The crossing flag. -/
theorem crossing_at : k0_pay9 x0 (ix2 p 0) = crossing (x0 (ix2 p 0)) (rad x0 p) :=
  congrArg₂ (fun (d : BitVec 1) (a : EReal) => IntOp.andi (IntOp.xori d 1#1) (Ideal.cmp .olt a zero)) (dead_at x0 p) (lower x0 p)

/-- The fresh coefficient. -/
theorem eps_at : k0_pay10 x0 x1 (ix2 p 0) = newEps (x0 (ix2 p 0)) (rad x0 p) (x1 (ix2 p 0)) := by
  refine (show k0_pay10 x0 x1 (ix2 p 0)
      = epsOf (k0_pay9 x0 (ix2 p 0)) (k0_pay3 x1 (ix2 p 0)) (k0_pay7 x0 (ix2 p 0)) (k0_pay6 x0 (ix2 p 0)) from rfl).trans ?_
  rw [crossing_at, lam_at, upper, lower]
  rfl

/-- The scaled row: entry (p, k) times the row's factor. -/
theorem scaled_at (k : Fin 4096) :
    k0_pay11 x0 x1 (ix2 p k) = x0 (ix2 p k) * scale (x0 (ix2 p 0)) (rad x0 p) (x1 (ix2 p 0)) := by
  have e : broadcastTo S256x4096
      (select (k0_pay8 x0) (broadcast S256x1 (Scalar.ofBits (F := Ideal) .f32 0x00000000#32))
        (select (k0_pay9 x0) (k0_pay3 x1) (broadcast S256x1 (Scalar.ofBits (F := Ideal) .f32 0x3F800000#32))))
      broadcasts_S256x1_S256x4096 (ix2 p k) = scale (x0 (ix2 p 0)) (rad x0 p) (x1 (ix2 p 0)) := by
    refine (spread_col _ _ p k).trans ?_
    refine (show _ = scaleOf (k0_pay8 x0 (ix2 p 0)) (k0_pay9 x0 (ix2 p 0)) (k0_pay3 x1 (ix2 p 0)) from rfl).trans ?_
    rw [dead_at, crossing_at, lam_at]
    rfl
  exact congrArg (fun s : EReal => x0 (ix2 p k) * s) e

/-- What is stored in the first 4096 columns, from the fresh coefficients v33 and the scaled rows v40: the scaled entry, plus
    the row's fresh coefficient in column 0. -/
theorem left_at (v33 : FVec Ideal S256x1 .f32) (v40 : FVec Ideal S256x4096 .f32) (k : Fin 4096) :
    k0_pay1 v33 (iota .tc S256x4096 32 [1] iota_S256x4096_d1_w32) v40 k0_pay12 (ix2 p k)
      = v40 (ix2 p k) + (if k.val = 0 then v33 (ix2 p 0) else zero) := by
  have ei : iota .tc S256x4096 32 [1] iota_S256x4096_d1_w32 (ix2 p k) = BitVec.ofNat 32 k.val :=
    iota_single_apply .tc S256x4096 32 1 iota_S256x4096_d1_w32 (ix2 p k)
  have eb : broadcastTo S256x4096 (shapeCast S256x1 v33 shapeCasts_S256x1_S256x1) broadcasts_S256x1_S256x4096 (ix2 p k)
      = v33 (ix2 p 0) := (spread_col _ _ p k).trans (congrFun (shapeCast_self v33 _) _)
  refine (show _ = v40 (ix2 p k) + Scalar.select
      (IntOp.cmpi .eq (iota .tc S256x4096 32 [1] iota_S256x4096_d1_w32 (ix2 p k)) (BitVec.ofNat 32 0))
      (broadcastTo S256x4096 (shapeCast S256x1 v33 shapeCasts_S256x1_S256x1) broadcasts_S256x1_S256x4096 (ix2 p k)) zero from rfl).trans ?_
  rw [ei, eb]
  exact congrArg (fun s : EReal => v40 (ix2 p k) + s) (select_word_eq (by have := k.isLt; omega) (by norm_num) _ _)

/-- What is stored in the last 8192 columns at grid coordinate i: the row's fresh coefficient in column 256 · i + p, zero
    elsewhere. -/
theorem right_at (i : ℕ) (hi : i < 32) (v33 : FVec Ideal S256x1 .f32) (k : Fin 8192) :
    k0_pay2 (Scalar.muli (BitVec.ofNat 32 i) 256#32) v33 (ix2 p k)
      = if k.val = 256 * i + p.val then v33 (ix2 p 0) else zero := by
  have e1 : iota .tc S256x8192 32 [1] iota_S256x8192_d1_w32 (ix2 p k) = BitVec.ofNat 32 k.val :=
    iota_single_apply .tc S256x8192 32 1 iota_S256x8192_d1_w32 (ix2 p k)
  have e0 : iota .tc S256x1 32 [0] iota_S256x1_d0_w32 (ix2 p 0) = BitVec.ofNat 32 p.val :=
    iota_single_apply .tc S256x1 32 0 iota_S256x1_d0_w32 (ix2 p 0)
  have er : broadcastTo S256x8192
      (addi (broadcast S256x1 (Scalar.muli (BitVec.ofNat 32 i) 256#32)) (iota .tc S256x1 32 [0] iota_S256x1_d0_w32))
      broadcasts_S256x1_S256x8192 (ix2 p k) = BitVec.ofNat 32 (256 * i + p.val) := by
    refine (spread_col _ _ p k).trans ?_
    refine (show _ = IntOp.addi (Scalar.muli (BitVec.ofNat 32 i) 256#32)
      (iota .tc S256x1 32 [0] iota_S256x1_d0_w32 (ix2 p 0)) from rfl).trans ?_
    rw [e0]
    exact row_word i p.val
  have eb : broadcastTo S256x8192 (shapeCast S256x1 v33 shapeCasts_S256x1_S256x1) broadcasts_S256x1_S256x8192 (ix2 p k)
      = v33 (ix2 p 0) := (spread_col _ _ p k).trans (congrFun (shapeCast_self v33 _) _)
  refine (show _ = Scalar.select
      (IntOp.cmpi .eq (iota .tc S256x8192 32 [1] iota_S256x8192_d1_w32 (ix2 p k))
        (broadcastTo S256x8192
          (addi (broadcast S256x1 (Scalar.muli (BitVec.ofNat 32 i) 256#32)) (iota .tc S256x1 32 [0] iota_S256x1_d0_w32))
          broadcasts_S256x1_S256x8192 (ix2 p k)))
      (broadcastTo S256x8192 (shapeCast S256x1 v33 shapeCasts_S256x1_S256x1) broadcasts_S256x1_S256x8192 (ix2 p k)) zero from rfl).trans ?_
  rw [e1, er, eb]
  exact select_word_eq (by have := k.isLt; omega) (by have := p.isLt; omega) _ _

end Cert.KernelIdeal.Payload

end
-- ==== Proof.KernelBlock.lean ====
/-
  What one grid point leaves in the output's 256 × 12288 staging block.

  The body writes the block in two pieces, columns 0..4095 and columns 4096..12287. Read back at row p and column J the two
  pieces are one function of the point's input blocks: in the first 4096 columns x0 (p, J) times the row's factor, the fresh
  coefficient added in column 0; in the last 8192 columns the fresh coefficient where J - 4096 is the row's number
  256 · i + p in the whole array, and zero elsewhere.
-/
import proofs.«104700_j43525198577802_2_alg».proof.Proof.Gen.KernelIdeal.Value
import proofs.«104700_j43525198577802_2_alg».proof.Proof.KernelPayload

set_option maxRecDepth 16384

noncomputable section

open scoped BigOperators

namespace Cert.KernelIdeal.Block

open Cert.KernelIdeal Cert.KernelIdeal.Gen Cert.KernelIdeal.Payload Idealize.ShloMosaic Idealize.ShloMosaic.ValueIdx
open Idealize.ShloMosaic.TcCoe Idealize.ShloMosaic.Tactic Idealize.SL Idealize.SL.Sem
open Cert.Zono (zero one half newEps scale)

/-- Row p of the block at grid coordinate i, column J. -/
def blockAt (i : ℕ) (x0 : Vec Ideal S256x4096 .f32) (x1 : Vec Ideal S256x1 .f32) (p : Fin 256) (J : Fin 12288) : EReal :=
  if h : J.val < 4096 then
    x0 (ix2 p ⟨J.val, h⟩) * scale (x0 (ix2 p 0)) (rad x0 p) (x1 (ix2 p 0))
      + (if J.val = 0 then newEps (x0 (ix2 p 0)) (rad x0 p) (x1 (ix2 p 0)) else zero)
  else if J.val - 4096 = 256 * i + p.val then newEps (x0 (ix2 p 0)) (rad x0 p) (x1 (ix2 p 0)) else zero

/-- The whole block. -/
def block (i : ℕ) (x0 : Vec Ideal S256x4096 .f32) (x1 : Vec Ideal S256x1 .f32) : Vec Ideal S256x12288 .f32 :=
  fun y => blockAt i x0 x1 (y 0) (y 1)

theorem hz : (![0, 0] : Fin 2 → Nat) = fun _ => 0 := funext fun a => by fin_cases a <;> rfl

/-- The two pieces the body stores, the later store first. -/
def pieces (i : grid0.Coords) (x0 : Vec Ideal S256x4096 .f32) (x1 : Vec Ideal S256x1 .f32) :
    List (View.Piece (Elt Ideal) S256x12288 .f32) :=
  [⟨Rect.unit ![0, 4096] ![256, 8192] inb_S256x12288_S256x8192_0_4096,
      k0_pay2 (Scalar.muli (BitVec.ofNat 32 (i 0).val) 256#32) (k0_pay10 x0 x1)⟩,
   ⟨Rect.unit ![0, 0] ![256, 4096] inb_S256x12288_S256x4096_0_0,
      k0_pay1 (k0_pay10 x0 x1) (iota .tc S256x4096 32 [1] iota_S256x4096_d1_w32) (k0_pay11 x0 x1) k0_pay12⟩]

/-- What the run leaves in the output's staging buffer is the read-back of those two pieces. -/
theorem out_eq_canon (c : Dev nD) (i : grid0.Coords) (arg1 : Memref sig .tc .vmem S256x4096 .f32) (harg1 : arg1.IsWhole)
    (arg2 : Memref sig .tc .vmem S256x1 .f32) (harg2 : arg2.IsWhole) (arg3 : Memref sig .tc .vmem S256x12288 .f32)
    (harg3 : arg3.IsWhole) (x0 : Vec Ideal S256x4096 .f32) (x1 : Vec Ideal S256x1 .f32) :
    out0_A_2 (F := Ideal) c i arg1 harg1 arg2 harg2 arg3 harg3 x0 x1 = View.canon (pieces i x0 x1) := by
  unfold out0_A_2
  rw [View.read_writes_eq_canon _ _ _ (cover0_A_2 c i arg1 harg1 arg2 harg2 arg3 harg3 x0 x1)]
  unfold kernelRun0_A
  dsimp only
  sl_unfold_words
  simp only [View.readAt_eq_ld, harg1.read_unread, harg2.read_unread, View.ld_unit_zero (S := S256x4096) hz,
    View.ld_unit_zero (S := S256x1) hz]
  rfl

/-- Where the right piece's entry (p, k) sits in the block. -/
theorem emb_right (p : Fin 256) (k : Fin 8192) :
    (Rect.unit (s := S256x12288) ![0, 4096] ![256, 8192] inb_S256x12288_S256x8192_0_4096).emb (ix2 p k)
      = ix2 p ⟨4096 + k.val, by have := k.isLt; omega⟩ := by
  funext a; apply Fin.ext
  match a with
  | ⟨0, _⟩ => show 0 + 1 * p.val = p.val; omega
  | ⟨1, _⟩ => show 4096 + 1 * k.val = 4096 + k.val; omega

/-- Where the left piece's entry (p, k) sits in the block. -/
theorem emb_left (p : Fin 256) (k : Fin 4096) :
    (Rect.unit (s := S256x12288) ![0, 0] ![256, 4096] inb_S256x12288_S256x4096_0_0).emb (ix2 p k)
      = ix2 p ⟨k.val, by have := k.isLt; omega⟩ := by
  funext a; apply Fin.ext
  match a with
  | ⟨0, _⟩ => show 0 + 1 * p.val = p.val; omega
  | ⟨1, _⟩ => show 0 + 1 * k.val = k.val; omega

/-- Each piece is the block function at the entries it covers. -/
theorem pieces_are_block (i : grid0.Coords) (hi : (i 0).val < 32) (x0 : Vec Ideal S256x4096 .f32) (x1 : Vec Ideal S256x1 .f32) :
    ∀ pc ∈ pieces i x0 x1, ∀ x : pc.1.shape.Idx, pc.2 x = block (i 0).val x0 x1 (pc.1.emb x) := by
  intro pc hpc
  rcases List.mem_cons.1 hpc with rfl | hpc
  · intro x
    obtain ⟨p, k, rfl⟩ : ∃ (p : Fin 256) (k : Fin 8192), x = ix2 p k := ⟨x 0, x 1, eq_ix2 x⟩
    rw [emb_right]
    refine (right_at p (i 0).val hi (k0_pay10 x0 x1) k).trans ?_
    rw [eps_at]
    have hk := k.isLt
    show _ = blockAt (i 0).val x0 x1 p ⟨4096 + k.val, _⟩
    unfold blockAt
    rw [dif_neg (by show ¬ (4096 + k.val < 4096); omega)]
    refine if_congr ?_ rfl rfl
    show k.val = 256 * (i 0).val + p.val ↔ 4096 + k.val - 4096 = 256 * (i 0).val + p.val
    omega
  · rcases List.mem_singleton.1 hpc with rfl
    intro x
    obtain ⟨p, k, rfl⟩ : ∃ (p : Fin 256) (k : Fin 4096), x = ix2 p k := ⟨x 0, x 1, eq_ix2 x⟩
    rw [emb_left]
    refine (left_at p (k0_pay10 x0 x1) (k0_pay11 x0 x1) k).trans ?_
    rw [scaled_at, eps_at]
    have hk := k.isLt
    show _ = blockAt (i 0).val x0 x1 p ⟨k.val, _⟩
    unfold blockAt
    rw [dif_pos (show k.val < 4096 from hk)]

/-- The two pieces cover the block. -/
theorem pieces_cover (i : grid0.Coords) (x0 : Vec Ideal S256x4096 .f32) (x1 : Vec Ideal S256x1 .f32) (y : S256x12288.Idx) :
    ∃ pc ∈ pieces i x0 x1, y ∈ pc.1.set := by
  obtain ⟨p, J, rfl⟩ : ∃ (p : Fin 256) (J : Fin 12288), y = ix2 p J := ⟨y 0, y 1, eq_ix2 y⟩
  have hp := p.isLt
  have hJ := J.isLt
  by_cases h : J.val < 4096
  · refine ⟨_, List.mem_cons_of_mem _ (List.mem_singleton_self _), ?_⟩
    rw [Rect.mem_set_unit]
    intro a
    match a with
    | ⟨0, _⟩ => show 0 ≤ p.val ∧ p.val < 0 + 256; omega
    | ⟨1, _⟩ => show 0 ≤ J.val ∧ J.val < 0 + 4096; omega
  · refine ⟨_, List.mem_cons_self, ?_⟩
    rw [Rect.mem_set_unit]
    intro a
    match a with
    | ⟨0, _⟩ => show 0 ≤ p.val ∧ p.val < 0 + 256; omega
    | ⟨1, _⟩ => show 4096 ≤ J.val ∧ J.val < 4096 + 8192; omega

/-- What a grid point leaves in the output's staging buffer is the block function of its input blocks. -/
theorem out_eq_block (c : Dev nD) (i : grid0.Coords) (hi : (i 0).val < 32) (arg1 : Memref sig .tc .vmem S256x4096 .f32)
    (harg1 : arg1.IsWhole) (arg2 : Memref sig .tc .vmem S256x1 .f32) (harg2 : arg2.IsWhole)
    (arg3 : Memref sig .tc .vmem S256x12288 .f32) (harg3 : arg3.IsWhole) (x0 : Vec Ideal S256x4096 .f32) (x1 : Vec Ideal S256x1 .f32) :
    out0_A_2 (F := Ideal) c i arg1 harg1 arg2 harg2 arg3 harg3 x0 x1 = block (i 0).val x0 x1 := by
  rw [out_eq_canon]
  funext y
  exact View.canon_apply_of_pieces (block (i 0).val x0 x1) (pieces i x0 x1) (pieces_are_block i hi x0 x1) y (pieces_cover i x0 x1 y)

end Cert.KernelIdeal.Block

end
-- ==== Proof.KernelValue.lean ====
/-
  From the blocks to the whole result array.

  Grid point t stages rows 256·t .. 256·t + 255 of the layer and of λ (as a column) and writes back the same rows of the
  result. Row p of its block is therefore row R = 256·t + p of the specification's array, with the radius taken as the sum
  of all 4096 absolute values less the centre's; and every row R lies in the block of the point R / 256. So the result
  array after the run is the specification's array for that radius.
-/
import proofs.«104700_j43525198577802_2_alg».proof.Proof.KernelBlock
import Idealize.ShloMosaic.Lib.StableHlo.Run

set_option maxRecDepth 16384

noncomputable section

open scoped BigOperators

namespace Cert.KernelIdeal.Final

open Cert.KernelIdeal Cert.KernelIdeal.Gen Cert.KernelIdeal.Payload Cert.KernelIdeal.Block
open Idealize.ShloMosaic Idealize.ShloMosaic.ValueIdx Idealize.ShloMosaic.TcCoe Idealize.SL.Sem
open Idealize.ShloMosaic.Pipeline (Dat)
open Cert.Zono (radK outAt out)

/-- Row p of the block computed from rows of X and λ at row R = 256·t + p is row R of the specification's array. -/
theorem blockAt_eq_outAt (X : (⟨2, ![8192, 4096]⟩ : Shape).Idx → EReal) (L : (⟨2, ![8192, 1]⟩ : Shape).Idx → EReal)
    (lam : (⟨1, ![8192]⟩ : Shape).Idx → EReal) (hL : ∀ R : Fin 8192, L (ix2 R 0) = lam (ix1 R))
    (tt : ℕ) (x0 : Vec Ideal S256x4096 .f32) (x1 : Vec Ideal S256x1 .f32) (p : Fin 256) (J : Fin 12288)
    (R : Fin 8192) (J' : Fin 12288) (hR : R.val = 256 * tt + p.val) (hJ : J'.val = J.val)
    (hx0 : ∀ k : Fin 4096, x0 (ix2 p k) = X (ix2 R k)) (hx1 : x1 (ix2 p 0) = L (ix2 R 0)) :
    blockAt tt x0 x1 p J = outAt (radK X) X lam R J' := by
  have hJ' : J' = J := Fin.ext hJ
  subst hJ'
  have hc : x0 (ix2 p 0) = X (ix2 R 0) := hx0 0
  have hr : rad x0 p = radK X R := by
    unfold rad radK
    rw [hc]
    exact congrArg (fun s : EReal => s - Cert.Zono.absE (X (ix2 R 0))) (Finset.sum_congr rfl fun k _ => by rw [hx0 k])
  have hl : x1 (ix2 p 0) = lam (ix1 R) := hx1.trans (hL R)
  unfold blockAt outAt
  rw [hc, hr, hl]
  by_cases h : J'.val < 4096
  · rw [dif_pos h, dif_pos h, hx0]
  · rw [dif_neg h, dif_neg h, hR]

variable (m : (ℓ : Loc nD τ sig) → Buf (Elt Ideal) ℓ) (ρ : Dev nD → PrngReg)

/-- The printed index maps over the 32 grid points: every window's block index is (t, 0), and the grid coordinate is t. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ ((grid0.coords t) 0).val = t.val ∧ t.val < 32 :=
  (by decide +kernel : ∀ t : Fin grid0.N, _)

/-- The array the second window stages is λ as a column: entry (R, 0) is λ R. -/
theorem lam_col (c : Dev nD) (R : Fin 8192) :
    (V m c main_v0 : S8192x1.Idx → EReal) (ix2 R 0) = (m ((c : Thread nD τ).loc main_arg1) : S8192.Idx → EReal) (ix1 R) := by
  have e : (V m c main_v0 : S8192x1.Idx → EReal)
      = broadcastInDim S8192x1 ![0] bcast_S8192_S8192x1_0 (m ((c : Thread nD τ).loc main_arg1)) := by
    dsimp only [Gen.V, Gen.hostOps0]; after_results
  rw [e]
  refine broadcastInDim_apply _ _ _ _ _ fun a => ?_
  match a with
  | ⟨0, _⟩ =>
    show R.val = if (8192 : ℕ) = 1 then 0 else R.val
    rw [if_neg (by decide)]

/-- What point t writes back is block t of the specification's array (radius: all absolute values less the centre's) of the
    arrays as the region finds them. -/
theorem flushed_eq (c : Dev nD) (t : Fin cfg0.N) :
    (dats m 0 c).flushed 2 t = ((cfg0.win 2).blk t).view.read (Elt Ideal)
      (out (radK (V m c main_arg0)) (V m c main_arg0) (m ((c : Thread nD τ).loc main_arg1))) := by
  obtain ⟨e00, e01, e10, e11, e20, e21, eg, ht⟩ := idx_facts t
  rw [Value.flushed2_A, out_eq_block c (grid0.coords t) (by rw [eg]; exact ht), eg]
  funext j
  have hj0 : (j 0).val < 256 := (j 0).isLt
  have hj1 : (j 1).val < 12288 := (j 1).isLt
  show blockAt t.val (iblk m c 0 t) (iblk m c 1 t) (j 0) (j 1)
    = outAt (radK (V m c main_arg0)) (V m c main_arg0) (m ((c : Thread nD τ).loc main_arg1))
        (((cfg0.win 2).blk t).view.emb j 0) (((cfg0.win 2).blk t).view.emb j 1)
  refine blockAt_eq_outAt (V m c main_arg0) (V m c main_v0) (m ((c : Thread nD τ).loc main_arg1)) (lam_col m c)
    t.val (iblk m c 0 t) (iblk m c 1 t) (j 0) (j 1) _ _ ?_ ?_ ?_ ?_
  · show win0_2.index t (0 : Fin 2) * 256 + 1 * (j 0).val = 256 * t.val + (j 0).val
    omega
  · show win0_2.index t (1 : Fin 2) * 12288 + 1 * (j 1).val = (j 1).val
    omega
  · intro k
    have hk : k.val < 4096 := k.isLt
    show V m c main_arg0 (((cfg0.win 0).blk t).view.emb (ix2 (j 0) k)) = V m c main_arg0 (ix2 (((cfg0.win 2).blk t).view.emb j 0) k)
    refine congrArg (V m c main_arg0) (funext fun a => Fin.ext ?_)
    match a with
    | ⟨0, _⟩ =>
      show win0_0.index t (0 : Fin 2) * 256 + 1 * (j 0).val = win0_2.index t (0 : Fin 2) * 256 + 1 * (j 0).val
      omega
    | ⟨1, _⟩ =>
      show win0_0.index t (1 : Fin 2) * 4096 + 1 * k.val = k.val
      omega
  · show V m c main_v0 (((cfg0.win 1).blk t).view.emb (ix2 (j 0) 0)) = V m c main_v0 (ix2 (((cfg0.win 2).blk t).view.emb j 0) 0)
    refine congrArg (V m c main_v0) (funext fun a => Fin.ext ?_)
    match a with
    | ⟨0, _⟩ =>
      show win0_1.index t (0 : Fin 2) * 256 + 1 * (j 0).val = win0_2.index t (0 : Fin 2) * 256 + 1 * (j 0).val
      omega
    | ⟨1, _⟩ =>
      show win0_1.index t (1 : Fin 2) * 1 + 1 * 0 = 0
      omega

/-- An index of the result array is in point t's block iff each coordinate is in the block's range on its axis. -/
theorem mem_blk (t : Fin cfg0.N) (i : S8192x12288.Idx) :
    i ∈ ((cfg0.win 2).blk t).view.set ↔ ∀ a : Fin 2, win0_2.index t a * S256x12288.size a ≤ (i a).val
      ∧ (i a).val < win0_2.index t a * S256x12288.size a + S256x12288.size a := by
  show i ∈ ((View.whole main_v1).slice (win0_2.rect t)).set ↔ _
  rw [View.set_slice_whole, Rect.mem_set_unit]
  exact Iff.rfl

/-- Every index of the result array is in the block of the point that holds its row. -/
theorem cover (i : S8192x12288.Idx) :
    ∃ t : Fin cfg0.N, (cfg0.win 2).flush t = true ∧ i ∈ ((cfg0.win 2).blk t).view.set := by
  have hi0 : (i 0).val < 8192 := (i 0).isLt
  have hi1 : (i 1).val < 12288 := (i 1).isLt
  have hN : grid0.N = 32 := N_0
  have hlt : (i 0).val / 256 < grid0.N := by rw [hN]; omega
  obtain ⟨-, -, -, -, e20, e21, -, -⟩ := idx_facts (⟨(i 0).val / 256, hlt⟩ : Fin cfg0.N)
  have e20' : win0_2.index (⟨(i 0).val / 256, hlt⟩ : Fin cfg0.N) (0 : Fin 2) = (i 0).val / 256 := e20
  refine ⟨⟨(i 0).val / 256, hlt⟩, flush0_2 _, ?_⟩
  rw [mem_blk]
  intro a
  match a with
  | ⟨0, _⟩ =>
    show win0_2.index (⟨(i 0).val / 256, hlt⟩ : Fin cfg0.N) (0 : Fin 2) * 256 ≤ (i 0).val
      ∧ (i 0).val < win0_2.index (⟨(i 0).val / 256, hlt⟩ : Fin cfg0.N) (0 : Fin 2) * 256 + 256
    rw [e20']; omega
  | ⟨1, _⟩ =>
    show win0_2.index (⟨(i 0).val / 256, hlt⟩ : Fin cfg0.N) (1 : Fin 2) * 12288 ≤ (i 1).val
      ∧ (i 1).val < win0_2.index (⟨(i 0).val / 256, hlt⟩ : Fin cfg0.N) (1 : Fin 2) * 12288 + 12288
    rw [e21]; omega

/-- The result array after the run: the specification's array of the two argument arrays, the radius taken as all absolute
    values less the centre's. -/
theorem final (c : Dev nD) :
    (dats m 0 c).arrAt 2 cfg0.N
      = out (radK (m ((c : Thread nD τ).loc main_arg0))) (m ((c : Thread nD τ).loc main_arg0)) (m ((c : Thread nD τ).loc main_arg1)) := by
  have h := (dats m 0 c).arrAt_eq_of_cover 2
    (out (radK (V m c main_arg0)) (V m c main_arg0) (m ((c : Thread nD τ).loc main_arg1)))
    (fun t _ => flushed_eq m c t) cover
  rw [V_main_arg0] at h
  exact h

/-- The kernel's run: it ends with the result array at the specification's array and the arguments unchanged. -/
theorem run : θ_run defs (onTc (τ := τ) (main (F := Ideal))) ⟨m, fun _ => 0, ρ⟩ fun r => ∀ c : Dev nD,
      r.2.mem ((c : Thread nD τ).loc main_v1)
        = out (radK (m ((c : Thread nD τ).loc main_arg0))) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Final

end
-- ==== Proof.Finite.lean ====
/-
  From the precondition to real entries.

  The precondition says that every entry of the layer and of λ has absolute value below +∞ (the word 0x7F800000). An
  extended real whose absolute value max x (-x) is below +∞ is neither +∞ nor -∞, so it is a real number. This is the
  form in which the radius law of the specification uses finiteness.
-/
import proofs.«104700_j43525198577802_2_alg».proof.Pre_finite_inputs
import Idealize.ShloMosaic.Lib.ReduceAll
import Idealize.ShloMosaic.PureOps.Ideal.Laws
import Idealize.ShloMosaic.Lib.ValueIdx

noncomputable section

namespace Cert.Finite

open Idealize.ShloMosaic Idealize.ShloMosaic.ValueIdx

instance : Subsingleton Cert.Pre_finite_inputs.S_.Idx := ⟨fun _ _ => funext fun d => d.elim0⟩

/-- The word 0x7F800000 is +∞. -/
theorem inf_word : Ideal.ofBits .f32 0x7F800000#32 = ⊤ := by simp [Ideal.ofBits, Ideal.ieee]

/-- An extended real whose absolute value compares below +∞ is a real number. -/
theorem real_of_abs_lt_inf (x : EReal)
    (h : Ideal.cmp .olt (max x (-x)) (Ideal.ofBits .f32 0x7F800000#32) = 1#1) : ∃ a : ℝ, x = (a : EReal) := by
  rw [inf_word] at h
  have hlt : max x (-x) < ⊤ := by
    by_contra hn
    have h0 : Ideal.cmp .olt (max x (-x)) ⊤ = 0#1 := by simp [Ideal.cmp, hn]
    rw [h0] at h
    exact absurd h (by decide)
  clear h
  induction x using EReal.rec with
  | bot => simp at hlt
  | top => simp at hlt
  | coe a => exact ⟨a, rfl⟩

/-- Under the precondition every entry of the first argument is a real number. -/
theorem real_of_pre [Cert.Pre_finite_inputs.Facts] (x : FVec Ideal Cert.Pre_finite_inputs.S8192x4096 .f32)
    (y : FVec Ideal Cert.Pre_finite_inputs.S8192 .f32)
    (h : Cert.Pre_finite_inputs.fn (F := Ideal) x y = fun _ => 1#1) : ∀ i, ∃ a : ℝ, x i = (a : EReal) := by
  intro i
  have h0 : Cert.Pre_finite_inputs.fn (F := Ideal) x y ix0 = 1#1 := congrFun h ix0
  dsimp only [Cert.Pre_finite_inputs.fn] at h0
  have h1 := (IntOp.andi_eq_one.1 h0).1
  exact real_of_abs_lt_inf (x i) (Host.reduce_andi_all _ _ _ _ ix0 h1 i)

end Cert.Finite

end
-- ==== Proof.RefRun.lean ====
/-
  The reference program's run. Its @main is a straight line of host operations once the functions it
  calls are unfolded at their call sites: the selects of the three conditionals, the diagonal's
  construction (a pad by nothing, two index grids, their comparison, the two broadcasts and the select).
  The line is listed as `ops`; @main is `seq ops`, so every buffer ends at the operations' fold over
  the launch contents.
-/
import proofs.«104700_j43525198577802_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 63 operations in order, each call replaced by its callee's operations over the call's own buffers. -/
abbrev ops : List (HloOp τ sig (Elt F)) :=
  [ unary main_arg0 main_v0 ((extractStridedSlice S8192x1 ![0, 0] · slices_S8192x4096_S8192x1_0_0) : (⟨S8192x4096, .f32⟩ : BufTy).Contents (Elt F) → (⟨S8192x1, .f32⟩ : BufTy).Contents (Elt F)),
    reshape main_v0 main_v1 rfl shapeCasts_S8192x1_S8192,
    unary main_arg0 main_v2 ((extractStridedSlice S8192x4095 ![0, 1] · slices_S8192x4096_S8192x4095_0_1) : (⟨S8192x4096, .f32⟩ : BufTy).Contents (Elt F) → (⟨S8192x4095, .f32⟩ : BufTy).Contents (Elt F)),
    unary main_v2 main_v3 (Host.absf : (⟨S8192x4095, .f32⟩ : BufTy).Contents (Elt F) → (⟨S8192x4095, .f32⟩ : BufTy).Contents (Elt F)),
    nullary main_cst (constant S_ .f32 0x00000000#32),
    binary main_v3 main_cst main_v4 ((fun x v => Host.reduceAdd x v reducesTo_S8192x4095_S8192_d1 h_S_) : (⟨S8192x4095, .f32⟩ : BufTy).Contents (Elt F) → (⟨S_, .f32⟩ : BufTy).Contents (Elt F) → (⟨S8192, .f32⟩ : BufTy).Contents (Elt F)),
    binary main_v1 main_v4 main_v5 (subf : (⟨S8192, .f32⟩ : BufTy).Contents (Elt F) → (⟨S8192, .f32⟩ : BufTy).Contents (Elt F) → (⟨S8192, .f32⟩ : BufTy).Contents (Elt F)),
    binary main_v1 main_v4 main_v6 (addf : (⟨S8192, .f32⟩ : BufTy).Contents (Elt F) → (⟨S8192, .f32⟩ : BufTy).Contents (Elt F) → (⟨S8192, .f32⟩ : BufTy).Contents (Elt F)),
    nullary main_cst_0 (constant S_ .f32 0x00000000#32),
    unary main_cst_0 main_v7 (broadcastInDim S8192 ![] bcast_S_S8192 : (⟨S_, .f32⟩ : BufTy).Contents (Elt F) → (⟨S8192, .f32⟩ : BufTy).Contents (Elt F)),
    binary main_v6 main_v7 main_v8 (cmpf .ole : (⟨S8192, .f32⟩ : BufTy).Contents (Elt F) → (⟨S8192, .f32⟩ : BufTy).Contents (Elt F) → (⟨S8192, .i1⟩ : BufTy).Contents (Elt F)),
    unary main_v8 main_v9 (noti : (⟨S8192, .i1⟩ : BufTy).Contents (Elt F) → (⟨S8192, .i1⟩ : BufTy).Contents (Elt F)),
    nullary main_cst_1 (constant S_ .f32 0x00000000#32),
    unary main_cst_1 main_v10 (broadcastInDim S8192 ![] bcast_S_S8192 : (⟨S_, .f32⟩ : BufTy).Contents (Elt F) → (⟨S8192, .f32⟩ : BufTy).Contents (Elt F)),
    binary main_v5 main_v10 main_v11 (cmpf .olt : (⟨S8192, .f32⟩ : BufTy).Contents (Elt F) → (⟨S8192, .f32⟩ : BufTy).Contents (Elt F) → (⟨S8192, .i1⟩ : BufTy).Contents (Elt F)),
    binary main_v9 main_v11 main_v12 (andi : (⟨S8192, .i1⟩ : BufTy).Contents (Elt F) → (⟨S8192, .i1⟩ : BufTy).Contents (Elt F) → (⟨S8192, .i1⟩ : BufTy).Contents (Elt F)),
    nullary main_cst_2 (constant S_ .f32 0x3F800000#32),
    unary main_cst_2 main_v13 (broadcastInDim S8192 ![] bcast_S_S8192 : (⟨S_, .f32⟩ : BufTy).Contents (Elt F) → (⟨S8192, .f32⟩ : BufTy).Contents (Elt F)),
    binary main_v6 main_v13 main_v14 (subf : (⟨S8192, .f32⟩ : BufTy).Contents (Elt F) → (⟨S8192, .f32⟩ : BufTy).Contents (Elt F) → (⟨S8192, .f32⟩ : BufTy).Contents (Elt F)),
    binary main_v6 main_v14 main_v15 (Host.divf : (⟨S8192, .f32⟩ : BufTy).Contents (Elt F) → (⟨S8192, .f32⟩ : BufTy).Contents (Elt F) → (⟨S8192, .f32⟩ : BufTy).Contents (Elt F)),
    binary main_arg1 main_v15 main_v16 (cmpf .oge : (⟨S8192, .f32⟩ : BufTy).Contents (Elt F) → (⟨S8192, .f32⟩ : BufTy).Contents (Elt F) → (⟨S8192, .i1⟩ : BufTy).Contents (Elt F)),
    unary main_v5 main_v17 (Host.negf : (⟨S8192, .f32⟩ : BufTy).Contents (Elt F) → (⟨S8192, .f32⟩ : BufTy).Contents (Elt F)),
    binary main_v17 main_arg1 main_v18 (mulf : (⟨S8192, .f32⟩ : BufTy).Contents (Elt F) → (⟨S8192, .f32⟩ : BufTy).Contents (Elt F) → (⟨S8192, .f32⟩ : BufTy).Contents (Elt F)),
    nullary main_cst_3 (constant S_ .f32 0x3F000000#32),
    unary main_cst_3 main_v19 (broadcastInDim S8192 ![] bcast_S_S8192 : (⟨S_, .f32⟩ : BufTy).Contents (Elt F) → (⟨S8192, .f32⟩ : BufTy).Contents (Elt F)),
    binary main_v18 main_v19 main_v20 (mulf : (⟨S8192, .f32⟩ : BufTy).Contents (Elt F) → (⟨S8192, .f32⟩ : BufTy).Contents (Elt F) → (⟨S8192, .f32⟩ : BufTy).Contents (Elt F)),
    nullary main_cst_4 (constant S_ .f32 0x3F800000#32),
    unary main_cst_4 main_v21 (broadcastInDim S8192 ![] bcast_S_S8192 : (⟨S_, .f32⟩ : BufTy).Contents (Elt F) → (⟨S8192, .f32⟩ : BufTy).Contents (Elt F)),
    binary main_v21 main_arg1 main_v22 (subf : (⟨S8192, .f32⟩ : BufTy).Contents (Elt F) → (⟨S8192, .f32⟩ : BufTy).Contents (Elt F) → (⟨S8192, .f32⟩ : BufTy).Contents (Elt F)),
    binary main_v6 main_v22 main_v23 (mulf : (⟨S8192, .f32⟩ : BufTy).Contents (Elt F) → (⟨S8192, .f32⟩ : BufTy).Contents (Elt F) → (⟨S8192, .f32⟩ : BufTy).Contents (Elt F)),
    TRef.ternary (.of main_v16 : TRef sig ⟨S8192, .i1⟩) (.of main_v20 : TRef sig ⟨S8192, .f32⟩) (.of main_v23 : TRef sig ⟨S8192, .f32⟩) main_call0.v0 select,
    nullary main_cst_5 (constant S_ .f32 0x00000000#32),
    TRef.unary (.of main_cst_5 : TRef sig ⟨S_, .f32⟩) main_call1.v0 id,
    TRef.unary main_call1.v0 main_call1.v1 (broadcastInDim S8192 ![] bcast_S_S8192),
    TRef.ternary (.of main_v12 : TRef sig ⟨S8192, .i1⟩) (.of main_v24 : TRef sig ⟨S8192, .f32⟩) main_call1.v1 main_call1.v2 select,
    nullary main_cst_6 (constant S_ .f32 0x3F800000#32),
    TRef.unary (.of main_cst_6 : TRef sig ⟨S_, .f32⟩) main_call2.v0 id,
    TRef.unary main_call2.v0 main_call2.v1 (broadcastInDim S8192 ![] bcast_S_S8192),
    TRef.ternary (.of main_v12 : TRef sig ⟨S8192, .i1⟩) (.of main_arg1 : TRef sig ⟨S8192, .f32⟩) main_call2.v1 main_call2.v2 select,
    nullary main_cst_7 (constant S_ .f32 0x00000000#32),
    TRef.unary (.of main_cst_7 : TRef sig ⟨S_, .f32⟩) main_call3.v0 id,
    TRef.unary main_call3.v0 main_call3.v1 (broadcastInDim S8192 ![] bcast_S_S8192),
    TRef.ternary (.of main_v8 : TRef sig ⟨S8192, .i1⟩) main_call3.v1 (.of main_v26 : TRef sig ⟨S8192, .f32⟩) main_call3.v2 select,
    unary main_v27 main_v28 (broadcastInDim S8192x1 ![0] bcast_S8192_S8192x1_0 : (⟨S8192, .f32⟩ : BufTy).Contents (Elt F) → (⟨S8192x1, .f32⟩ : BufTy).Contents (Elt F)),
    unary main_v28 main_v29 (broadcastInDim S8192x4096 ![0, 1] bcast_S8192x1_S8192x4096_0_1 : (⟨S8192x1, .f32⟩ : BufTy).Contents (Elt F) → (⟨S8192x4096, .f32⟩ : BufTy).Contents (Elt F)),
    binary main_arg0 main_v29 main_v30 (mulf : (⟨S8192x4096, .f32⟩ : BufTy).Contents (Elt F) → (⟨S8192x4096, .f32⟩ : BufTy).Contents (Elt F) → (⟨S8192x4096, .f32⟩ : BufTy).Contents (Elt F)),
    nullary main_c (constantI S_ 32 0#32),
    unary main_c main_v31 (broadcastInDim S1 ![] bcast_S_S1 : (⟨S_, .i32⟩ : BufTy).Contents (Elt F) → (⟨S1, .i32⟩ : BufTy).Contents (Elt F)),
    ternary main_v30 main_v31 main_v25 main_v32 ((fun x i u => Host.scatter scatter_S8192x4096_S1_S8192_0_1_1_0 FloatOps.addf x i u) : (⟨S8192x4096, .f32⟩ : BufTy).Contents (Elt F) → (⟨S1, .i32⟩ : BufTy).Contents (Elt F) → (⟨S8192, .f32⟩ : BufTy).Contents (Elt F) → (⟨S8192x4096, .f32⟩ : BufTy).Contents (Elt F)),
    TRef.nullary main_call4.cst (constant S_ .f32 0x00000000#32),
    TRef.binary (.of main_v25 : TRef sig ⟨S8192, .f32⟩) main_call4.cst main_call4.v0 (fun x v => pad S8192 ![0] ![0] ![0] x v pads_S8192_S8192_000 h_S_),
    TRef.nullary main_call4.v1 (iotaInDim S8192x8192 32 0),
    TRef.nullary main_call4.v2 (iotaInDim S8192x8192 32 1),
    TRef.nullary main_call4.c (constantI S_ 32 0#32),
    TRef.unary main_call4.c main_call4.v3 (broadcastInDim S8192x8192 ![] bcast_S_S8192x8192),
    TRef.binary main_call4.v1 main_call4.v3 main_call4.v4 addi,
    TRef.binary main_call4.v4 main_call4.v2 main_call4.v5 (cmpi .eq),
    TRef.unary main_call4.v0 main_call4.v6 (broadcastInDim S8192x1 ![0] bcast_S8192_S8192x1_0),
    TRef.nullary main_call4.cst_0 (constant S_ .f32 0x00000000#32),
    TRef.unary main_call4.v6 main_call4.call0.v0 (broadcastInDim S8192x8192 ![0, 1] bcast_S8192x1_S8192x8192_0_1),
    TRef.unary main_call4.cst_0 main_call4.call0.v1 (broadcastInDim S8192x8192 ![] bcast_S_S8192x8192),
    TRef.ternary main_call4.v5 main_call4.call0.v0 main_call4.call0.v1 main_call4.call0.v2 select,
    binary main_v32 main_v33 main_v34 ((fun a b => concatenate S8192x12288 1 [⟨S8192x4096, a⟩, ⟨S8192x8192, b⟩] concatenates_S8192x4096_S8192x8192_S8192x12288_d1) : (⟨S8192x4096, .f32⟩ : BufTy).Contents (Elt F) → (⟨S8192x8192, .f32⟩ : BufTy).Contents (Elt F) → (⟨S8192x12288, .f32⟩ : BufTy).Contents (Elt F)) ]

set_option maxRecDepth 4096 in
/-- @main is that straight line: the callees unfolded at their calls, the sequencing reassociated. -/
theorem main_eq (c : Dev nD) : main (F := F) c = seq ops := by
  simp only [main, fn_where.body, fn_where_0.body, fn_where_1.body, fn_where_2.body, fn_where_3.body, fn_diag.body,
    seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., unary_bufs_sub .., unary_bufs_sub .., nullary_bufs_sub .., binary_bufs_sub .., binary_bufs_sub .., binary_bufs_sub .., nullary_bufs_sub .., unary_bufs_sub .., binary_bufs_sub .., unary_bufs_sub .., nullary_bufs_sub .., unary_bufs_sub .., binary_bufs_sub .., binary_bufs_sub .., nullary_bufs_sub .., unary_bufs_sub .., binary_bufs_sub .., binary_bufs_sub .., binary_bufs_sub .., unary_bufs_sub .., binary_bufs_sub .., nullary_bufs_sub .., unary_bufs_sub .., binary_bufs_sub .., nullary_bufs_sub .., unary_bufs_sub .., binary_bufs_sub .., binary_bufs_sub .., ternary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., unary_bufs_sub .., ternary_bufs_sub .., unary_bufs_sub .., unary_bufs_sub .., binary_bufs_sub .., nullary_bufs_sub .., unary_bufs_sub .., ternary_bufs_sub .., nullary_bufs_sub .., binary_bufs_sub .., nullary_bufs_sub .., nullary_bufs_sub .., nullary_bufs_sub .., unary_bufs_sub .., binary_bufs_sub .., binary_bufs_sub .., unary_bufs_sub .., nullary_bufs_sub .., unary_bufs_sub .., unary_bufs_sub .., ternary_bufs_sub .., binary_bufs_sub ..⟩

/-- From any memory with zero counters every weakly fair execution of @main terminates, and every buffer of
    the TensorCore ends at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefTerm.lean ====
/-
  The reference's result as one function of its two arguments.

  The operations of @main compose to the following terms of the argument arrays `x` (the layer) and `lam` (the
  row factors): the centre column and the radius of every row, the box bounds, the two row tests, the fresh
  coefficient and the row scale; then the scaled layer with the coefficient added into column 0 by a scatter, the
  diagonal block, and their concatenation.
-/
import proofs.«104700_j43525198577802_2_alg».proof.Proof.Gen.ReferenceIdeal

noncomputable section

namespace Cert.ReferenceIdeal.RefOut

open Cert.ReferenceIdeal Cert.ReferenceIdeal.Gen Idealize.ShloMosaic

variable {F : FTy → Type} [FloatOps F]

/-- The three scalars the program broadcasts over the rows: 0, 1 and 1/2. -/
def zeroV : FVec F S8192 .f32 := broadcastInDim S8192 ![] bcast_S_S8192 (constant S_ .f32 0x00000000#32)
def oneV : FVec F S8192 .f32 := broadcastInDim S8192 ![] bcast_S_S8192 (constant S_ .f32 0x3F800000#32)
def halfV : FVec F S8192 .f32 := broadcastInDim S8192 ![] bcast_S_S8192 (constant S_ .f32 0x3F000000#32)

/-- The centre of every row: column 0, as a vector. -/
def cen (x : FVec F S8192x4096 .f32) : FVec F S8192 .f32 :=
  shapeCast S8192 (extractStridedSlice S8192x1 ![0, 0] x slices_S8192x4096_S8192x1_0_0) shapeCasts_S8192x1_S8192

/-- The radius of every row: the sum of the absolute values of columns 1 to 4095, from zero. -/
def rad (x : FVec F S8192x4096 .f32) : FVec F S8192 .f32 :=
  Host.reduceAdd (Host.absf (extractStridedSlice S8192x4095 ![0, 1] x slices_S8192x4096_S8192x4095_0_1))
    (constant S_ .f32 0x00000000#32) reducesTo_S8192x4095_S8192_d1 h_S_

def lo (x : FVec F S8192x4096 .f32) : FVec F S8192 .f32 := subf (cen x) (rad x)
def hi (x : FVec F S8192x4096 .f32) : FVec F S8192 .f32 := addf (cen x) (rad x)

/-- The row tests: the upper bound at most zero; not that, and the lower bound below zero. -/
def dead (x : FVec F S8192x4096 .f32) : IVec S8192 1 := cmpf .ole (hi x) zeroV
def crossing (x : FVec F S8192x4096 .f32) : IVec S8192 1 := andi (noti (dead x)) (cmpf .olt (lo x) zeroV)

/-- The fresh coefficient of every row. -/
def eps (x : FVec F S8192x4096 .f32) (lam : FVec F S8192 .f32) : FVec F S8192 .f32 :=
  select (crossing x)
    (select (cmpf .oge lam (Host.divf (hi x) (subf (hi x) oneV)))
      (mulf (mulf (Host.negf (lo x)) lam) halfV) (mulf (hi x) (subf oneV lam)))
    zeroV

/-- The factor of every row. -/
def scale (x : FVec F S8192x4096 .f32) (lam : FVec F S8192 .f32) : FVec F S8192 .f32 :=
  select (dead x) zeroV (select (crossing x) lam oneV)

/-- The scaled layer before the centre's shift. -/
def scaled (x : FVec F S8192x4096 .f32) (lam : FVec F S8192 .f32) : FVec F S8192x4096 .f32 :=
  mulf x (broadcastInDim S8192x4096 ![0, 1] bcast_S8192x1_S8192x4096_0_1
    (broadcastInDim S8192x1 ![0] bcast_S8192_S8192x1_0 (scale x lam)))

/-- The index vector of the scatter: the one word 0. -/
def zeroIdx : IVec S1 32 := broadcastInDim S1 ![] bcast_S_S1 (constantI S_ 32 0#32)

/-- The first 4096 columns: the scaled layer with the fresh coefficient added into column 0. -/
def mainPart (x : FVec F S8192x4096 .f32) (lam : FVec F S8192 .f32) : FVec F S8192x4096 .f32 :=
  Host.scatter scatter_S8192x4096_S1_S8192_0_1_1_0 FloatOps.addf (scaled x lam) zeroIdx (eps x lam)

/-- Where row and column agree, as the program tests it: the row index plus zero equal to the column index, on 32-bit words. -/
def onDiag : IVec S8192x8192 1 :=
  cmpi .eq (addi (iotaInDim S8192x8192 32 0) (broadcastInDim S8192x8192 ![] bcast_S_S8192x8192 (constantI S_ 32 0#32)))
    (iotaInDim S8192x8192 32 1)

/-- The last 8192 columns: the fresh coefficients on the diagonal, zero elsewhere. -/
def diagPart (x : FVec F S8192x4096 .f32) (lam : FVec F S8192 .f32) : FVec F S8192x8192 .f32 :=
  select onDiag
    (broadcastInDim S8192x8192 ![0, 1] bcast_S8192x1_S8192x8192_0_1
      (broadcastInDim S8192x1 ![0] bcast_S8192_S8192x1_0
        (pad S8192 ![0] ![0] ![0] (eps x lam) (constant (F := F) S_ .f32 0x00000000#32) pads_S8192_S8192_000 h_S_)))
    (broadcastInDim S8192x8192 ![] bcast_S_S8192x8192 (constant S_ .f32 0x00000000#32))

/-- The whole result. -/
def refOut (x : FVec F S8192x4096 .f32) (lam : FVec F S8192 .f32) : FVec F S8192x12288 .f32 :=
  concatenate S8192x12288 1 [⟨S8192x4096, mainPart x lam⟩, ⟨S8192x8192, diagPart x lam⟩]
    concatenates_S8192x4096_S8192x8192_S8192x12288_d1

end Cert.ReferenceIdeal.RefOut

end
-- ==== Proof.RefOut.lean ====
/-
  The fold of the reference's operations at the result buffer, read as the term `refOut` of the two argument arrays.

  The line of operations is cut into six consecutive segments. For each segment and ANY contents `W` of the buffers
  before it, the few buffers later segments read are stated as terms of `W` at the buffers the segment reads, and the
  buffers it does not write as unchanged; each such statement unfolds a fold of at most fifteen operations. Chaining the
  segments (`after` of a concatenation is the composition) gives the result buffer as `refOut` and the two
  argument buffers as unchanged.
-/
import proofs.«104700_j43525198577802_2_alg».proof.Proof.RefRun
import proofs.«104700_j43525198577802_2_alg».proof.Proof.RefTerm

noncomputable section

namespace Cert.ReferenceIdeal.RefOut

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

/-- The fold over a concatenation is the fold over the second list from the fold over the first. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-! ## The segments -/

abbrev seg1 : List (HloOp τ sig (Elt F)) :=
  [ unary main_arg0 main_v0 ((extractStridedSlice S8192x1 ![0, 0] · slices_S8192x4096_S8192x1_0_0) : (⟨S8192x4096, .f32⟩ : BufTy).Contents (Elt F) → (⟨S8192x1, .f32⟩ : BufTy).Contents (Elt F)),
    reshape main_v0 main_v1 rfl shapeCasts_S8192x1_S8192,
    unary main_arg0 main_v2 ((extractStridedSlice S8192x4095 ![0, 1] · slices_S8192x4096_S8192x4095_0_1) : (⟨S8192x4096, .f32⟩ : BufTy).Contents (Elt F) → (⟨S8192x4095, .f32⟩ : BufTy).Contents (Elt F)),
    unary main_v2 main_v3 (Host.absf : (⟨S8192x4095, .f32⟩ : BufTy).Contents (Elt F) → (⟨S8192x4095, .f32⟩ : BufTy).Contents (Elt F)),
    nullary main_cst (constant S_ .f32 0x00000000#32),
    binary main_v3 main_cst main_v4 ((fun x v => Host.reduceAdd x v reducesTo_S8192x4095_S8192_d1 h_S_) : (⟨S8192x4095, .f32⟩ : BufTy).Contents (Elt F) → (⟨S_, .f32⟩ : BufTy).Contents (Elt F) → (⟨S8192, .f32⟩ : BufTy).Contents (Elt F)),
    binary main_v1 main_v4 main_v5 (subf : (⟨S8192, .f32⟩ : BufTy).Contents (Elt F) → (⟨S8192, .f32⟩ : BufTy).Contents (Elt F) → (⟨S8192, .f32⟩ : BufTy).Contents (Elt F)),
    binary main_v1 main_v4 main_v6 (addf : (⟨S8192, .f32⟩ : BufTy).Contents (Elt F) → (⟨S8192, .f32⟩ : BufTy).Contents (Elt F) → (⟨S8192, .f32⟩ : BufTy).Contents (Elt F)) ]

abbrev seg2 : List (HloOp τ sig (Elt F)) :=
  [ nullary main_cst_0 (constant S_ .f32 0x00000000#32),
    unary main_cst_0 main_v7 (broadcastInDim S8192 ![] bcast_S_S8192 : (⟨S_, .f32⟩ : BufTy).Contents (Elt F) → (⟨S8192, .f32⟩ : BufTy).Contents (Elt F)),
    binary main_v6 main_v7 main_v8 (cmpf .ole : (⟨S8192, .f32⟩ : BufTy).Contents (Elt F) → (⟨S8192, .f32⟩ : BufTy).Contents (Elt F) → (⟨S8192, .i1⟩ : BufTy).Contents (Elt F)),
    unary main_v8 main_v9 (noti : (⟨S8192, .i1⟩ : BufTy).Contents (Elt F) → (⟨S8192, .i1⟩ : BufTy).Contents (Elt F)),
    nullary main_cst_1 (constant S_ .f32 0x00000000#32),
    unary main_cst_1 main_v10 (broadcastInDim S8192 ![] bcast_S_S8192 : (⟨S_, .f32⟩ : BufTy).Contents (Elt F) → (⟨S8192, .f32⟩ : BufTy).Contents (Elt F)),
    binary main_v5 main_v10 main_v11 (cmpf .olt : (⟨S8192, .f32⟩ : BufTy).Contents (Elt F) → (⟨S8192, .f32⟩ : BufTy).Contents (Elt F) → (⟨S8192, .i1⟩ : BufTy).Contents (Elt F)),
    binary main_v9 main_v11 main_v12 (andi : (⟨S8192, .i1⟩ : BufTy).Contents (Elt F) → (⟨S8192, .i1⟩ : BufTy).Contents (Elt F) → (⟨S8192, .i1⟩ : BufTy).Contents (Elt F)) ]

abbrev seg3 : List (HloOp τ sig (Elt F)) :=
  [ nullary main_cst_2 (constant S_ .f32 0x3F800000#32),
    unary main_cst_2 main_v13 (broadcastInDim S8192 ![] bcast_S_S8192 : (⟨S_, .f32⟩ : BufTy).Contents (Elt F) → (⟨S8192, .f32⟩ : BufTy).Contents (Elt F)),
    binary main_v6 main_v13 main_v14 (subf : (⟨S8192, .f32⟩ : BufTy).Contents (Elt F) → (⟨S8192, .f32⟩ : BufTy).Contents (Elt F) → (⟨S8192, .f32⟩ : BufTy).Contents (Elt F)),
    binary main_v6 main_v14 main_v15 (Host.divf : (⟨S8192, .f32⟩ : BufTy).Contents (Elt F) → (⟨S8192, .f32⟩ : BufTy).Contents (Elt F) → (⟨S8192, .f32⟩ : BufTy).Contents (Elt F)),
    binary main_arg1 main_v15 main_v16 (cmpf .oge : (⟨S8192, .f32⟩ : BufTy).Contents (Elt F) → (⟨S8192, .f32⟩ : BufTy).Contents (Elt F) → (⟨S8192, .i1⟩ : BufTy).Contents (Elt F)),
    unary main_v5 main_v17 (Host.negf : (⟨S8192, .f32⟩ : BufTy).Contents (Elt F) → (⟨S8192, .f32⟩ : BufTy).Contents (Elt F)),
    binary main_v17 main_arg1 main_v18 (mulf : (⟨S8192, .f32⟩ : BufTy).Contents (Elt F) → (⟨S8192, .f32⟩ : BufTy).Contents (Elt F) → (⟨S8192, .f32⟩ : BufTy).Contents (Elt F)),
    nullary main_cst_3 (constant S_ .f32 0x3F000000#32),
    unary main_cst_3 main_v19 (broadcastInDim S8192 ![] bcast_S_S8192 : (⟨S_, .f32⟩ : BufTy).Contents (Elt F) → (⟨S8192, .f32⟩ : BufTy).Contents (Elt F)),
    binary main_v18 main_v19 main_v20 (mulf : (⟨S8192, .f32⟩ : BufTy).Contents (Elt F) → (⟨S8192, .f32⟩ : BufTy).Contents (Elt F) → (⟨S8192, .f32⟩ : BufTy).Contents (Elt F)),
    nullary main_cst_4 (constant S_ .f32 0x3F800000#32),
    unary main_cst_4 main_v21 (broadcastInDim S8192 ![] bcast_S_S8192 : (⟨S_, .f32⟩ : BufTy).Contents (Elt F) → (⟨S8192, .f32⟩ : BufTy).Contents (Elt F)),
    binary main_v21 main_arg1 main_v22 (subf : (⟨S8192, .f32⟩ : BufTy).Contents (Elt F) → (⟨S8192, .f32⟩ : BufTy).Contents (Elt F) → (⟨S8192, .f32⟩ : BufTy).Contents (Elt F)),
    binary main_v6 main_v22 main_v23 (mulf : (⟨S8192, .f32⟩ : BufTy).Contents (Elt F) → (⟨S8192, .f32⟩ : BufTy).Contents (Elt F) → (⟨S8192, .f32⟩ : BufTy).Contents (Elt F)),
    TRef.ternary (.of main_v16 : TRef sig ⟨S8192, .i1⟩) (.of main_v20 : TRef sig ⟨S8192, .f32⟩) (.of main_v23 : TRef sig ⟨S8192, .f32⟩) main_call0.v0 select ]

abbrev seg4 : List (HloOp τ sig (Elt F)) :=
  [ nullary main_cst_5 (constant S_ .f32 0x00000000#32),
    TRef.unary (.of main_cst_5 : TRef sig ⟨S_, .f32⟩) main_call1.v0 id,
    TRef.unary main_call1.v0 main_call1.v1 (broadcastInDim S8192 ![] bcast_S_S8192),
    TRef.ternary (.of main_v12 : TRef sig ⟨S8192, .i1⟩) (.of main_v24 : TRef sig ⟨S8192, .f32⟩) main_call1.v1 main_call1.v2 select,
    nullary main_cst_6 (constant S_ .f32 0x3F800000#32),
    TRef.unary (.of main_cst_6 : TRef sig ⟨S_, .f32⟩) main_call2.v0 id,
    TRef.unary main_call2.v0 main_call2.v1 (broadcastInDim S8192 ![] bcast_S_S8192),
    TRef.ternary (.of main_v12 : TRef sig ⟨S8192, .i1⟩) (.of main_arg1 : TRef sig ⟨S8192, .f32⟩) main_call2.v1 main_call2.v2 select,
    nullary main_cst_7 (constant S_ .f32 0x00000000#32),
    TRef.unary (.of main_cst_7 : TRef sig ⟨S_, .f32⟩) main_call3.v0 id,
    TRef.unary main_call3.v0 main_call3.v1 (broadcastInDim S8192 ![] bcast_S_S8192),
    TRef.ternary (.of main_v8 : TRef sig ⟨S8192, .i1⟩) main_call3.v1 (.of main_v26 : TRef sig ⟨S8192, .f32⟩) main_call3.v2 select ]

abbrev seg5 : List (HloOp τ sig (Elt F)) :=
  [ unary main_v27 main_v28 (broadcastInDim S8192x1 ![0] bcast_S8192_S8192x1_0 : (⟨S8192, .f32⟩ : BufTy).Contents (Elt F) → (⟨S8192x1, .f32⟩ : BufTy).Contents (Elt F)),
    unary main_v28 main_v29 (broadcastInDim S8192x4096 ![0, 1] bcast_S8192x1_S8192x4096_0_1 : (⟨S8192x1, .f32⟩ : BufTy).Contents (Elt F) → (⟨S8192x4096, .f32⟩ : BufTy).Contents (Elt F)),
    binary main_arg0 main_v29 main_v30 (mulf : (⟨S8192x4096, .f32⟩ : BufTy).Contents (Elt F) → (⟨S8192x4096, .f32⟩ : BufTy).Contents (Elt F) → (⟨S8192x4096, .f32⟩ : BufTy).Contents (Elt F)),
    nullary main_c (constantI S_ 32 0#32),
    unary main_c main_v31 (broadcastInDim S1 ![] bcast_S_S1 : (⟨S_, .i32⟩ : BufTy).Contents (Elt F) → (⟨S1, .i32⟩ : BufTy).Contents (Elt F)),
    ternary main_v30 main_v31 main_v25 main_v32 ((fun x i u => Host.scatter scatter_S8192x4096_S1_S8192_0_1_1_0 FloatOps.addf x i u) : (⟨S8192x4096, .f32⟩ : BufTy).Contents (Elt F) → (⟨S1, .i32⟩ : BufTy).Contents (Elt F) → (⟨S8192, .f32⟩ : BufTy).Contents (Elt F) → (⟨S8192x4096, .f32⟩ : BufTy).Contents (Elt F)) ]

abbrev seg6 : List (HloOp τ sig (Elt F)) :=
  [ TRef.nullary main_call4.cst (constant S_ .f32 0x00000000#32),
    TRef.binary (.of main_v25 : TRef sig ⟨S8192, .f32⟩) main_call4.cst main_call4.v0 (fun x v => pad S8192 ![0] ![0] ![0] x v pads_S8192_S8192_000 h_S_),
    TRef.nullary main_call4.v1 (iotaInDim S8192x8192 32 0),
    TRef.nullary main_call4.v2 (iotaInDim S8192x8192 32 1),
    TRef.nullary main_call4.c (constantI S_ 32 0#32),
    TRef.unary main_call4.c main_call4.v3 (broadcastInDim S8192x8192 ![] bcast_S_S8192x8192),
    TRef.binary main_call4.v1 main_call4.v3 main_call4.v4 addi,
    TRef.binary main_call4.v4 main_call4.v2 main_call4.v5 (cmpi .eq),
    TRef.unary main_call4.v0 main_call4.v6 (broadcastInDim S8192x1 ![0] bcast_S8192_S8192x1_0),
    TRef.nullary main_call4.cst_0 (constant S_ .f32 0x00000000#32),
    TRef.unary main_call4.v6 main_call4.call0.v0 (broadcastInDim S8192x8192 ![0, 1] bcast_S8192x1_S8192x8192_0_1),
    TRef.unary main_call4.cst_0 main_call4.call0.v1 (broadcastInDim S8192x8192 ![] bcast_S_S8192x8192),
    TRef.ternary main_call4.v5 main_call4.call0.v0 main_call4.call0.v1 main_call4.call0.v2 select,
    binary main_v32 main_v33 main_v34 ((fun a b => concatenate S8192x12288 1 [⟨S8192x4096, a⟩, ⟨S8192x8192, b⟩] concatenates_S8192x4096_S8192x8192_S8192x12288_d1) : (⟨S8192x4096, .f32⟩ : BufTy).Contents (Elt F) → (⟨S8192x8192, .f32⟩ : BufTy).Contents (Elt F) → (⟨S8192x12288, .f32⟩ : BufTy).Contents (Elt F)) ]

/-- The line is the six segments in order. -/
theorem ops_eq : (ops : List (HloOp τ sig (Elt F))) = seg1 ++ (seg2 ++ (seg3 ++ (seg4 ++ (seg5 ++ seg6)))) := rfl

/-! ## Each segment over arbitrary contents -/

section Segments
attribute [local irreducible] Host.scatter Host.reduceAdd pad concatenate iotaInDim

theorem s1_v5 (W : Valuation τ sig (Elt F)) :
    after seg1 W (main_v5 : DevRef τ sig) = lo (W (main_arg0 : DevRef τ sig) : FVec F S8192x4096 .f32) := by
  simp only [after_cons, after_nil]; rfl

theorem s1_v6 (W : Valuation τ sig (Elt F)) :
    after seg1 W (main_v6 : DevRef τ sig) = hi (W (main_arg0 : DevRef τ sig) : FVec F S8192x4096 .f32) := by
  simp only [after_cons, after_nil]; rfl

theorem s1_arg0 (W : Valuation τ sig (Elt F)) : after seg1 W (main_arg0 : DevRef τ sig) = W (main_arg0 : DevRef τ sig) := by
  simp only [after_cons, after_nil]; rfl

theorem s1_arg1 (W : Valuation τ sig (Elt F)) : after seg1 W (main_arg1 : DevRef τ sig) = W (main_arg1 : DevRef τ sig) := by
  simp only [after_cons, after_nil]; rfl

theorem s2_v8 (W : Valuation τ sig (Elt F)) :
    after seg2 W (main_v8 : DevRef τ sig) = cmpf .ole (W (main_v6 : DevRef τ sig) : FVec F S8192 .f32) zeroV := by
  simp only [after_cons, after_nil]; rfl

theorem s2_v12 (W : Valuation τ sig (Elt F)) :
    after seg2 W (main_v12 : DevRef τ sig) = andi (noti (cmpf .ole (W (main_v6 : DevRef τ sig) : FVec F S8192 .f32) zeroV)) (cmpf .olt (W (main_v5 : DevRef τ sig) : FVec F S8192 .f32) zeroV) := by
  simp only [after_cons, after_nil]; rfl

theorem s2_v5 (W : Valuation τ sig (Elt F)) : after seg2 W (main_v5 : DevRef τ sig) = W (main_v5 : DevRef τ sig) := by
  simp only [after_cons, after_nil]; rfl

theorem s2_v6 (W : Valuation τ sig (Elt F)) : after seg2 W (main_v6 : DevRef τ sig) = W (main_v6 : DevRef τ sig) := by
  simp only [after_cons, after_nil]; rfl

theorem s2_arg0 (W : Valuation τ sig (Elt F)) : after seg2 W (main_arg0 : DevRef τ sig) = W (main_arg0 : DevRef τ sig) := by
  simp only [after_cons, after_nil]; rfl

theorem s2_arg1 (W : Valuation τ sig (Elt F)) : after seg2 W (main_arg1 : DevRef τ sig) = W (main_arg1 : DevRef τ sig) := by
  simp only [after_cons, after_nil]; rfl

theorem s3_v24 (W : Valuation τ sig (Elt F)) :
    after seg3 W (main_v24 : DevRef τ sig) = select (cmpf .oge (W (main_arg1 : DevRef τ sig) : FVec F S8192 .f32) (Host.divf (W (main_v6 : DevRef τ sig) : FVec F S8192 .f32) (subf (W (main_v6 : DevRef τ sig) : FVec F S8192 .f32) oneV)))
        (mulf (mulf (Host.negf (W (main_v5 : DevRef τ sig) : FVec F S8192 .f32)) (W (main_arg1 : DevRef τ sig) : FVec F S8192 .f32)) halfV) (mulf (W (main_v6 : DevRef τ sig) : FVec F S8192 .f32) (subf oneV (W (main_arg1 : DevRef τ sig) : FVec F S8192 .f32))) := by
  simp only [after_cons, after_nil]; rfl

theorem s3_v8 (W : Valuation τ sig (Elt F)) : after seg3 W (main_v8 : DevRef τ sig) = W (main_v8 : DevRef τ sig) := by
  simp only [after_cons, after_nil]; rfl

theorem s3_v12 (W : Valuation τ sig (Elt F)) : after seg3 W (main_v12 : DevRef τ sig) = W (main_v12 : DevRef τ sig) := by
  simp only [after_cons, after_nil]; rfl

theorem s3_arg0 (W : Valuation τ sig (Elt F)) : after seg3 W (main_arg0 : DevRef τ sig) = W (main_arg0 : DevRef τ sig) := by
  simp only [after_cons, after_nil]; rfl

theorem s3_arg1 (W : Valuation τ sig (Elt F)) : after seg3 W (main_arg1 : DevRef τ sig) = W (main_arg1 : DevRef τ sig) := by
  simp only [after_cons, after_nil]; rfl

theorem s4_v25 (W : Valuation τ sig (Elt F)) :
    after seg4 W (main_v25 : DevRef τ sig) = select (W (main_v12 : DevRef τ sig) : IVec S8192 1) (W (main_v24 : DevRef τ sig) : FVec F S8192 .f32) zeroV := by
  simp only [after_cons, after_nil]; rfl

theorem s4_v27 (W : Valuation τ sig (Elt F)) :
    after seg4 W (main_v27 : DevRef τ sig) = select (W (main_v8 : DevRef τ sig) : IVec S8192 1) zeroV (select (W (main_v12 : DevRef τ sig) : IVec S8192 1) (W (main_arg1 : DevRef τ sig) : FVec F S8192 .f32) oneV) := by
  simp only [after_cons, after_nil]; rfl

theorem s4_arg0 (W : Valuation τ sig (Elt F)) : after seg4 W (main_arg0 : DevRef τ sig) = W (main_arg0 : DevRef τ sig) := by
  simp only [after_cons, after_nil]; rfl

theorem s4_arg1 (W : Valuation τ sig (Elt F)) : after seg4 W (main_arg1 : DevRef τ sig) = W (main_arg1 : DevRef τ sig) := by
  simp only [after_cons, after_nil]; rfl

theorem s5_v32 (W : Valuation τ sig (Elt F)) :
    after seg5 W (main_v32 : DevRef τ sig) = Host.scatter scatter_S8192x4096_S1_S8192_0_1_1_0 FloatOps.addf
        (mulf (W (main_arg0 : DevRef τ sig) : FVec F S8192x4096 .f32) (broadcastInDim S8192x4096 ![0, 1] bcast_S8192x1_S8192x4096_0_1
          (broadcastInDim S8192x1 ![0] bcast_S8192_S8192x1_0 (W (main_v27 : DevRef τ sig) : FVec F S8192 .f32))))
        (broadcastInDim S1 ![] bcast_S_S1 (constantI S_ 32 0#32)) (W (main_v25 : DevRef τ sig) : FVec F S8192 .f32) := by
  after_results

theorem s5_v25 (W : Valuation τ sig (Elt F)) : after seg5 W (main_v25 : DevRef τ sig) = W (main_v25 : DevRef τ sig) := by
  simp only [after_cons, after_nil]; rfl

theorem s5_arg0 (W : Valuation τ sig (Elt F)) : after seg5 W (main_arg0 : DevRef τ sig) = W (main_arg0 : DevRef τ sig) := by
  simp only [after_cons, after_nil]; rfl

theorem s5_arg1 (W : Valuation τ sig (Elt F)) : after seg5 W (main_arg1 : DevRef τ sig) = W (main_arg1 : DevRef τ sig) := by
  simp only [after_cons, after_nil]; rfl

theorem s6_v34 (W : Valuation τ sig (Elt F)) :
    after seg6 W (main_v34 : DevRef τ sig) = concatenate S8192x12288 1
        [⟨S8192x4096, (W (main_v32 : DevRef τ sig) : FVec F S8192x4096 .f32)⟩,
         ⟨S8192x8192, select onDiag
            (broadcastInDim S8192x8192 ![0, 1] bcast_S8192x1_S8192x8192_0_1
              (broadcastInDim S8192x1 ![0] bcast_S8192_S8192x1_0
                (pad S8192 ![0] ![0] ![0] (W (main_v25 : DevRef τ sig) : FVec F S8192 .f32) (constant (F := F) S_ .f32 0x00000000#32) pads_S8192_S8192_000 h_S_)))
            (broadcastInDim S8192x8192 ![] bcast_S_S8192x8192 (constant S_ .f32 0x00000000#32))⟩]
        concatenates_S8192x4096_S8192x8192_S8192x12288_d1 := by
  simp only [after_cons, after_nil]; rfl

theorem s6_arg0 (W : Valuation τ sig (Elt F)) : after seg6 W (main_arg0 : DevRef τ sig) = W (main_arg0 : DevRef τ sig) := by
  simp only [after_cons, after_nil]; rfl

theorem s6_arg1 (W : Valuation τ sig (Elt F)) : after seg6 W (main_arg1 : DevRef τ sig) = W (main_arg1 : DevRef τ sig) := by
  simp only [after_cons, after_nil]; rfl

end Segments

/-! ## The chain -/

/-- The fold of the operations at the result buffer is `refOut` of the two arguments' contents. -/
theorem out_eq (V : Valuation τ sig (Elt F)) :
    after ops V (main_v34 : DevRef τ sig) = refOut (V (main_arg0 : DevRef τ sig)) (V (main_arg1 : DevRef τ sig)) := by
  rw [ops_eq, after_app, after_app, after_app, after_app, after_app]
  rw [s6_v34, s5_v32, s5_v25, s4_v25, s4_v27, s4_arg0, s3_v24, s3_v8, s3_v12, s3_arg0, s3_arg1,
    s2_v8, s2_v12, s2_v5, s2_v6, s2_arg0, s2_arg1, s1_v5, s1_v6, s1_arg0, s1_arg1]
  rfl

theorem arg0_eq (V : Valuation τ sig (Elt F)) :
    after ops V (main_arg0 : DevRef τ sig) = V (main_arg0 : DevRef τ sig) := by
  rw [ops_eq, after_app, after_app, after_app, after_app, after_app, s6_arg0, s5_arg0, s4_arg0, s3_arg0, s2_arg0, s1_arg0]

theorem arg1_eq (V : Valuation τ sig (Elt F)) :
    after ops V (main_arg1 : DevRef τ sig) = V (main_arg1 : DevRef τ sig) := by
  rw [ops_eq, after_app, after_app, after_app, after_app, after_app, s6_arg1, s5_arg1, s4_arg1, s3_arg1, s2_arg1, s1_arg1]

end Cert.ReferenceIdeal.RefOut

end
-- ==== Proof.LibScatterFold.lean ====
/-
  Reading a host scatter at an index.

  `Host.scatter d f x idx upd` is a left fold over the update's indices in row-major order: the step for update index
  `j` replaces the running result's element at `j`'s result index by `f` of that element and the update's element
  (and leaves the result alone when the result index falls outside the operand). When every update index has a
  result index inside the operand, given as a function `tgt`, and `tgt` is injective (no two updates land on the
  same element), the fold reads at an index as follows: an index no update lands on keeps the operand's element
  (`Host.scatter_apply_of_miss`), and the index update `j` lands on holds `f` of the operand's element there and
  the update's element at `j` (`Host.scatter_apply_of_hit`). Both follow from the two facts about the bare fold
  (`foldl_scatterStep_miss`, `foldl_scatterStep_hit`), stated for any list of update positions without repeats.
-/
import Idealize.ShloMosaic.PureOps

namespace Idealize.ShloMosaic

section Fold

variable {ι κ α : Type} [DecidableEq κ]

/-- One step of a scatter's fold: position `n` lands on `tgt n`, whose element becomes `f` of the element there and
    the update's `g n`; every other element is kept. -/
def scatterStep (f : α → α → α) (tgt : ι → κ) (g : ι → α) (r : κ → α) (n : ι) : κ → α :=
  fun i' => if i' = tgt n then f (r (tgt n)) (g n) else r i'

/-- An index none of the listed positions lands on keeps its element through the fold. -/
theorem foldl_scatterStep_miss (f : α → α → α) (tgt : ι → κ) (g : ι → α) (L : List ι) (x : κ → α) (i : κ)
    (h : ∀ n ∈ L, tgt n ≠ i) : L.foldl (scatterStep f tgt g) x i = x i := by
  induction L generalizing x with
  | nil => rfl
  | cons m L ih =>
    rw [List.foldl_cons, ih _ fun n hn => h n (List.mem_cons_of_mem _ hn)]
    unfold scatterStep
    rw [if_neg fun e => h m List.mem_cons_self e.symm]

/-- The index a listed position `n` lands on ends at `f` of its first element and the update's at `n`, when the
    list has no repeats and no other listed position lands on the same index. -/
theorem foldl_scatterStep_hit (f : α → α → α) (tgt : ι → κ) (g : ι → α) (L : List ι) (hL : L.Nodup) (x : κ → α) (n : ι)
    (hn : n ∈ L) (hinj : ∀ a ∈ L, ∀ b ∈ L, tgt a = tgt b → a = b) :
    L.foldl (scatterStep f tgt g) x (tgt n) = f (x (tgt n)) (g n) := by
  induction L generalizing x with
  | nil => exact absurd hn List.not_mem_nil
  | cons m L ih =>
    have hm : m ∉ L := (List.nodup_cons.1 hL).1
    have hL' : L.Nodup := (List.nodup_cons.1 hL).2
    rw [List.foldl_cons]
    by_cases hnm : n = m
    · subst hnm
      rw [foldl_scatterStep_miss f tgt g L _ (tgt n) fun a ha e =>
        hm (hinj a (List.mem_cons_of_mem _ ha) n List.mem_cons_self e ▸ ha)]
      unfold scatterStep
      rw [if_pos rfl]
    · have hn' : n ∈ L := (List.mem_cons.1 hn).resolve_left hnm
      rw [ih hL' _ hn' fun a ha b hb => hinj a (List.mem_cons_of_mem _ ha) b (List.mem_cons_of_mem _ hb)]
      unfold scatterStep
      rw [if_neg fun e => hnm (hinj n hn m List.mem_cons_self e)]

end Fold

section Scatter

variable {s si u : Shape} {w : Nat} {α : Type}

/-- When every update index has its result index inside the operand, `tgt` naming it, the scatter is the fold of
    `scatterStep` over the update's positions in row-major order. -/
theorem Host.scatter_eq_foldl (d : ScatterDims s si u) (f : α → α → α) (x : s.Idx → α) (idx : IVec si w) (upd : u.Idx → α)
    (tgt : u.Idx → s.Idx) (h : ∀ j, d.resultIdx? j idx = some (tgt j)) :
    Host.scatter d f x idx upd
      = (List.finRange u.numel).foldl
          (scatterStep f (fun n => tgt (u.rowMajor.symm n)) (fun n => upd (u.rowMajor.symm n))) x := by
  unfold Host.scatter
  congr 1
  funext r n
  simp only [h]
  rfl

/-- An operand index no update lands on keeps the operand's element. -/
theorem Host.scatter_apply_of_miss (d : ScatterDims s si u) (f : α → α → α) (x : s.Idx → α) (idx : IVec si w) (upd : u.Idx → α)
    (tgt : u.Idx → s.Idx) (h : ∀ j, d.resultIdx? j idx = some (tgt j)) (i : s.Idx) (hi : ∀ j, tgt j ≠ i) :
    Host.scatter d f x idx upd i = x i := by
  rw [Host.scatter_eq_foldl d f x idx upd tgt h]
  exact foldl_scatterStep_miss f _ _ _ x i fun n _ => hi _

/-- The operand index update `j` lands on holds `f` of the operand's element there and the update's element at `j`, when
    distinct updates land on distinct indices. -/
theorem Host.scatter_apply_of_hit (d : ScatterDims s si u) (f : α → α → α) (x : s.Idx → α) (idx : IVec si w) (upd : u.Idx → α)
    (tgt : u.Idx → s.Idx) (h : ∀ j, d.resultIdx? j idx = some (tgt j)) (hinj : Function.Injective tgt) (j : u.Idx) :
    Host.scatter d f x idx upd (tgt j) = f (x (tgt j)) (upd j) := by
  rw [Host.scatter_eq_foldl d f x idx upd tgt h]
  have e := foldl_scatterStep_hit f (fun n => tgt (u.rowMajor.symm n)) (fun n => upd (u.rowMajor.symm n))
    (List.finRange u.numel) (List.nodup_finRange _) x (u.rowMajor j) (List.mem_finRange _)
    (fun a _ b _ e => u.rowMajor.symm.injective (hinj e))
  simp only [Equiv.symm_apply_apply] at e
  exact e

end Scatter

end Idealize.ShloMosaic
-- ==== Proof.RefValue.lean ====
/-
  The reference's result term is the specification's array, with the radius as the sum of the 4095 coefficients' absolute
  values from zero.

  Row by row: the centre is the layer's entry (R, 0); the radius is zero plus the sum of |x (R, k + 1)|; bounds, flags, fresh
  coefficient and factor are the specification's functions of (c, r, λ) — the reference writes the negation of the lower bound
  where the specification writes zero minus it, and the complement of the dead flag where the specification flips it with 1,
  which are the same. The first 4096 columns are the scaled layer with the fresh coefficients scattered into column 0: update
  R lands on (R, 0), distinct updates on distinct entries, so column 0 holds the scaled centre plus the fresh coefficient and
  every other column the scaled entry, which is the scaled entry plus zero. The last 8192 columns hold the fresh coefficient
  where the row's and the column's 32-bit words agree, that is where the numbers do, and zero elsewhere.
-/
import proofs.«104700_j43525198577802_2_alg».proof.Proof.RefTerm
import proofs.«104700_j43525198577802_2_alg».proof.Proof.Spec
import proofs.«104700_j43525198577802_2_alg».proof.Proof.BlockLayout
import proofs.«104700_j43525198577802_2_alg».proof.Proof.LibScatterFold
import Idealize.ShloMosaic.Lib.KernelVsHost
import Idealize.ShloMosaic.Lib.IdealHost

noncomputable section

open scoped BigOperators

namespace Cert.ReferenceIdeal.RefValue

open Cert.ReferenceIdeal Cert.ReferenceIdeal.Gen Cert.ReferenceIdeal.RefOut Idealize.ShloMosaic Idealize.ShloMosaic.ValueIdx
open Cert.BlockLayout (select_word_eq)
open Cert.Zono (zero one half radR absE)

variable (x : FVec Ideal S8192x4096 .f32) (lam : FVec Ideal S8192 .f32) (R : Fin 8192)

/-- The centre of row R. -/
theorem cen_at : cen x (ix1 R) = x (ix2 R 0) := by
  unfold cen
  refine (shapeCast_apply _ _ (ix1 R) (ix2 R (0 : Fin 1)) ?_).trans ?_
  · rw [Shape.rowMajor_val_two, Shape.rowMajor_val_one]
    show R.val * 1 + 0 = R.val
    omega
  · refine extractStridedSlice_apply _ x _ (ix2 R (0 : Fin 1)) (ix2 R (0 : Fin 4096)) fun d => ?_
    match d with
    | ⟨0, _⟩ => show R.val = 0 + R.val; omega
    | ⟨1, _⟩ => show 0 = 0 + 0; rfl

/-- The radius of row R: zero plus the sum of the coefficients' absolute values. -/
theorem rad_at : rad x (ix1 R) = radR x R := by
  unfold radR
  show Ideal.hostReduceAdd reducesTo_S8192x4095_S8192_d1
      (Host.absf (extractStridedSlice S8192x4095 ![0, 1] x slices_S8192x4096_S8192x4095_0_1)) zero (ix1 R) = _
  rw [Ideal.hostReduceAdd_single reducesTo_S8192x4095_S8192_d1 (by decide : S8192x4095.Reduces [1] S8192)]
  refine congrArg (fun s : EReal => zero + s) (Finset.sum_congr rfl fun k _ => ?_)
  refine congrArg absE (extractStridedSlice_apply _ x _ _ (ix2 R k.succ) fun d => ?_)
  match d with
  | ⟨0, _⟩ => show R.val = 0 + R.val; omega
  | ⟨1, _⟩ => show k.val + 1 = 1 + k.val; omega

theorem lo_at : lo x (ix1 R) = Cert.Zono.lo (x (ix2 R 0)) (radR x R) :=
  congrArg₂ (fun a b : EReal => a - b) (cen_at x R) (rad_at x R)

theorem hi_at : hi x (ix1 R) = Cert.Zono.hi (x (ix2 R 0)) (radR x R) :=
  congrArg₂ (fun a b : EReal => a + b) (cen_at x R) (rad_at x R)

theorem dead_at : dead x (ix1 R) = Cert.Zono.dead (x (ix2 R 0)) (radR x R) :=
  congrArg (fun a : EReal => Ideal.cmp .ole a zero) (hi_at x R)

/-- On one-bit words the complement is the flip by 1. -/
theorem not_word (d : BitVec 1) : ~~~d = IntOp.xori d 1#1 := by revert d; decide

theorem crossing_at : crossing x (ix1 R) = Cert.Zono.crossing (x (ix2 R 0)) (radR x R) := by
  refine (show crossing x (ix1 R)
    = IntOp.andi (~~~(dead x (ix1 R))) (Ideal.cmp .olt (lo x (ix1 R)) zero) from rfl).trans ?_
  rw [dead_at, lo_at, not_word]
  rfl

/-- The fresh coefficient as the reference spells it, from the flag and bounds. -/
def epsRef (cr : BitVec 1) (l u lm : EReal) : EReal :=
  Scalar.select cr (Scalar.select (Ideal.cmp .oge lm (Ideal.div u (u - one))) ((-l) * lm * half) (u * (one - lm))) zero

theorem eps_at : eps x lam (ix1 R) = Cert.Zono.newEps (x (ix2 R 0)) (radR x R) (lam (ix1 R)) := by
  refine (show eps x lam (ix1 R)
    = epsRef (crossing x (ix1 R)) (lo x (ix1 R)) (hi x (ix1 R)) (lam (ix1 R)) from rfl).trans ?_
  rw [crossing_at, lo_at, hi_at]
  unfold epsRef Cert.Zono.newEps
  rw [Cert.Zono.zero_eq, zero_sub]

/-- The row's factor from the two flags. -/
def scaleRef (d cr : BitVec 1) (lm : EReal) : EReal := Scalar.select d zero (Scalar.select cr lm one)

theorem scale_at : scale x lam (ix1 R) = Cert.Zono.scale (x (ix2 R 0)) (radR x R) (lam (ix1 R)) := by
  refine (show scale x lam (ix1 R) = scaleRef (dead x (ix1 R)) (crossing x (ix1 R)) (lam (ix1 R)) from rfl).trans ?_
  rw [dead_at, crossing_at]
  rfl

/-- A per-row vector spread over the columns of an 8192 × b array reads its row's entry. -/
theorem spread_rows {b : ℕ} (v : FVec Ideal S8192 .f32) (h1 : S8192.BroadcastsInDim S8192x1 ![0])
    (h2 : S8192x1.BroadcastsInDim ⟨2, ![8192, b]⟩ ![0, 1]) (k : Fin b) :
    broadcastInDim ⟨2, ![8192, b]⟩ ![0, 1] h2 (broadcastInDim S8192x1 ![0] h1 v) (ix2 R k) = v (ix1 R) := by
  refine (broadcastInDim_apply _ _ _ (ix2 R k) (ix2 R (0 : Fin 1)) fun a => ?_).trans
    (broadcastInDim_apply _ _ _ (ix2 R (0 : Fin 1)) (ix1 R) fun a => ?_)
  · match a with
    | ⟨0, _⟩ =>
      show R.val = if (8192 : ℕ) = 1 then 0 else R.val
      rw [if_neg (by decide)]
    | ⟨1, _⟩ =>
      show (0 : ℕ) = if (1 : ℕ) = 1 then 0 else k.val
      rw [if_pos rfl]
  · match a with
    | ⟨0, _⟩ =>
      show R.val = if (8192 : ℕ) = 1 then 0 else R.val
      rw [if_neg (by decide)]

/-- The scaled layer. -/
theorem scaled_at (k : Fin 4096) :
    scaled x lam (ix2 R k) = x (ix2 R k) * Cert.Zono.scale (x (ix2 R 0)) (radR x R) (lam (ix1 R)) :=
  congrArg (fun s : EReal => x (ix2 R k) * s) ((spread_rows R (scale x lam) _ _ k).trans (scale_at x lam R))

/-- Update R of the scatter lands on entry (R, 0). -/
def tgt : S8192.Idx → S8192x4096.Idx := fun j => ix2 (j 0) (0 : Fin 4096)

theorem tgt_inj : Function.Injective tgt := fun a b e => by
  funext d
  match d with
  | ⟨0, _⟩ => exact congrFun e 0

theorem tgt_ok (j : S8192.Idx) : scatter_S8192x4096_S1_S8192_0_1_1_0.resultIdx? j (zeroIdx) = some (tgt j) := by
  have hj : (j 0).val < 8192 := (j 0).isLt
  have hs0 : scatter_S8192x4096_S1_S8192_0_1_1_0.start j zeroIdx (0 : Fin 2) = 0 := by
    unfold ScatterDims.start; exact dif_neg (by decide)
  have hs1 : scatter_S8192x4096_S1_S8192_0_1_1_0.start j zeroIdx (1 : Fin 2) = 0 := by
    unfold ScatterDims.start; rw [dif_pos (by decide)]; rfl
  have hw0 : scatter_S8192x4096_S1_S8192_0_1_1_0.window j (0 : Fin 2) = (j 0).val := by
    unfold ScatterDims.window; rw [dif_pos (by decide)]; rfl
  have hw1 : scatter_S8192x4096_S1_S8192_0_1_1_0.window j (1 : Fin 2) = 0 := by
    unfold ScatterDims.window; exact dif_neg (by decide)
  have hall : ∀ a : Fin 2, 0 ≤ scatter_S8192x4096_S1_S8192_0_1_1_0.start j zeroIdx a + scatter_S8192x4096_S1_S8192_0_1_1_0.window j a
      ∧ scatter_S8192x4096_S1_S8192_0_1_1_0.start j zeroIdx a + scatter_S8192x4096_S1_S8192_0_1_1_0.window j a < S8192x4096.size a := by
    intro a
    match a with
    | ⟨0, _⟩ =>
      show 0 ≤ scatter_S8192x4096_S1_S8192_0_1_1_0.start j zeroIdx (0 : Fin 2) + (scatter_S8192x4096_S1_S8192_0_1_1_0.window j (0 : Fin 2) : ℤ)
        ∧ scatter_S8192x4096_S1_S8192_0_1_1_0.start j zeroIdx (0 : Fin 2) + (scatter_S8192x4096_S1_S8192_0_1_1_0.window j (0 : Fin 2) : ℤ) < (8192 : ℤ)
      rw [hs0, hw0]; omega
    | ⟨1, _⟩ =>
      show 0 ≤ scatter_S8192x4096_S1_S8192_0_1_1_0.start j zeroIdx (1 : Fin 2) + (scatter_S8192x4096_S1_S8192_0_1_1_0.window j (1 : Fin 2) : ℤ)
        ∧ scatter_S8192x4096_S1_S8192_0_1_1_0.start j zeroIdx (1 : Fin 2) + (scatter_S8192x4096_S1_S8192_0_1_1_0.window j (1 : Fin 2) : ℤ) < (4096 : ℤ)
      rw [hs1, hw1]; omega
  unfold ScatterDims.resultIdx?
  rw [dif_pos hall]
  refine congrArg some (funext fun a => Fin.ext ?_)
  match a with
  | ⟨0, _⟩ =>
    show (scatter_S8192x4096_S1_S8192_0_1_1_0.start j zeroIdx (0 : Fin 2) + (scatter_S8192x4096_S1_S8192_0_1_1_0.window j (0 : Fin 2) : ℤ)).toNat = (j 0).val
    rw [hs0, hw0]; omega
  | ⟨1, _⟩ =>
    show (scatter_S8192x4096_S1_S8192_0_1_1_0.start j zeroIdx (1 : Fin 2) + (scatter_S8192x4096_S1_S8192_0_1_1_0.window j (1 : Fin 2) : ℤ)).toNat = 0
    rw [hs1, hw1]; rfl

/-- The first 4096 columns: the scaled entry, plus the fresh coefficient in column 0. -/
theorem main_at (k : Fin 4096) :
    mainPart x lam (ix2 R k) = scaled x lam (ix2 R k) + (if k.val = 0 then eps x lam (ix1 R) else zero) := by
  unfold mainPart
  by_cases hk : k.val = 0
  · have hk' : k = 0 := Fin.ext hk
    subst hk'
    rw [if_pos hk]
    exact Host.scatter_apply_of_hit _ _ _ _ _ tgt tgt_ok tgt_inj (ix1 R)
  · rw [if_neg hk, Cert.Zono.zero_eq, add_zero]
    refine Host.scatter_apply_of_miss _ _ _ _ _ tgt tgt_ok (ix2 R k) fun j e => hk ?_
    have e1 : (0 : Fin 4096) = k := congrFun e 1
    exact (congrArg Fin.val e1).symm

/-- The fresh coefficients as a matrix whose every row R is constant at the row's coefficient. -/
def epsMat (e : FVec Ideal S8192 .f32) : FVec Ideal S8192x8192 .f32 :=
  broadcastInDim S8192x8192 ![0, 1] bcast_S8192x1_S8192x8192_0_1
    (broadcastInDim S8192x1 ![0] bcast_S8192_S8192x1_0
      (pad S8192 ![0] ![0] ![0] e (constant (F := Ideal) S_ .f32 0x00000000#32) pads_S8192_S8192_000 h_S_))

theorem epsMat_at (e : FVec Ideal S8192 .f32) (k : Fin 8192) : epsMat e (ix2 R k) = e (ix1 R) := by
  unfold epsMat
  refine (spread_rows R _ _ _ k).trans (pad_apply_of_inside _ _ _ e _ _ _ (ix1 R) (ix1 R) fun a => ?_)
  match a with
  | ⟨0, _⟩ => show R.val = 0 + R.val * (0 + 1); omega

/-- The last 8192 columns: the fresh coefficient on the diagonal, zero elsewhere. -/
theorem diag_at (k : Fin 8192) :
    diagPart x lam (ix2 R k) = if R.val = k.val then eps x lam (ix1 R) else zero := by
  refine (show diagPart x lam (ix2 R k)
    = Scalar.select (IntOp.cmpi .eq (IntOp.addi (BitVec.ofNat 32 R.val) 0#32) (BitVec.ofNat 32 k.val))
        (epsMat (eps x lam) (ix2 R k)) zero from rfl).trans ?_
  rw [epsMat_at, show IntOp.addi (BitVec.ofNat 32 R.val) 0#32 = BitVec.ofNat 32 R.val from BitVec.add_zero _]
  exact select_word_eq (by have := R.isLt; omega) (by have := k.isLt; omega) _ _

/-- The reference's result term is the specification's array for the radius radR. -/
theorem refOut_eq : refOut (F := Ideal) x lam = Cert.Zono.out (radR x) x lam := by
  funext j
  obtain ⟨R, J, rfl⟩ : ∃ (R : Fin 8192) (J : Fin 12288), j = ix2 R J := ⟨j 0, j 1, eq_ix2 j⟩
  show refOut x lam (ix2 R J) = Cert.Zono.outAt (radR x) x lam R J
  have hJ := J.isLt
  unfold refOut Cert.Zono.outAt
  by_cases h : J.val < 4096
  · rw [dif_pos h]
    refine (concatenate_pair_apply_left (t := S8192x12288) (s₁ := S8192x4096) (s₂ := S8192x8192) (1 : Fin 2) _ _ _ (ix2 R J) rfl (ix2 R (⟨J.val, h⟩ : Fin 4096)) fun b => ?_).trans ?_
    · match b with
      | ⟨0, _⟩ => rfl
      | ⟨1, _⟩ => rfl
    · rw [main_at, scaled_at, eps_at]
  · rw [dif_neg h]
    refine (concatenate_pair_apply_right (t := S8192x12288) (s₁ := S8192x4096) (s₂ := S8192x8192) (1 : Fin 2) _ _ _ (ix2 R J) rfl rfl
      (ix2 R (⟨J.val - 4096, by omega⟩ : Fin 8192)) (fun b hb => ?_) ?_).trans ?_
    · match b with
      | ⟨0, _⟩ => rfl
      | ⟨1, _⟩ => exact absurd rfl hb
    · show J.val - 4096 + 4096 = J.val
      omega
    · rw [diag_at, eps_at]
      exact if_congr ⟨fun e => e.symm, fun e => e.symm⟩ rfl rfl

end Cert.ReferenceIdeal.RefValue

end
-- ==== Proof.RefFinal.lean ====
/-
  The reference's run with its result read as the specification's array.

  Every weakly fair execution of the reference's @main terminates with each buffer at the fold of its operations over
  the launch contents; the fold at the result buffer is the term `refOut` of the two argument arrays, which is the
  specification's array at the radius taken as the sum of the coefficients' absolute values; the argument buffers are
  not written.
-/
import proofs.«104700_j43525198577802_2_alg».proof.Proof.RefOut
import proofs.«104700_j43525198577802_2_alg».proof.Proof.RefValue

noncomputable section

namespace Cert.ReferenceIdeal.RefValue

open Cert.ReferenceIdeal Cert.ReferenceIdeal.Gen Idealize.ShloMosaic Idealize.ShloMosaic.TcCoe Idealize.SL.Sem Idealize.ShloMosaic.StableHlo

/-- From any memory with zero counters every weakly fair execution of the reference's @main terminates; the result buffer
    ends at the specification's array of the launch contents of the two arguments, at the radius `radR`, and the two
    arguments end unchanged. -/
theorem run (m : (ℓ : Loc nD τ sig) → Buf (Elt Ideal) ℓ) (ρ : Dev nD → PrngReg) :
    θ_run (Cert.ReferenceIdeal.defs (F := Ideal)) (onTc (τ := τ) (main (F := Ideal))) ⟨m, fun _ => 0, ρ⟩ (fun r => ∀ c : Dev nD,
      r.2.mem ((c.tc : Thread nD τ).loc main_v34)
          = Cert.Zono.out (Cert.Zono.radR (m ((c.tc : Thread nD τ).loc main_arg0))) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run (Cert.ReferenceIdeal.defs (F := Ideal)) _ _).mono
    (fun _ h c =>
      ⟨(h c main_v34).trans ((RefOut.out_eq (launchContents m c)).trans (refOut_eq _ _)),
       (h c main_arg0).trans (RefOut.arg0_eq (launchContents m c)),
       (h c main_arg1).trans (RefOut.arg1_eq (launchContents m c))⟩)
    (RefRun.run_main m ρ)

end Cert.ReferenceIdeal.RefValue

end
-- ==== Proof.lean ====
/-
  The ReLU transformer of a zonotope as one Pallas kernel over 32 blocks of 256 rows, against its jnp reference.

  Both programs compute, row by row, the box [c - r, c + r] of the row, whether the row is dead or crossing, the fresh
  error coefficient and the row's factor, and write the scaled row (the fresh coefficient added to its centre) followed by
  the diagonal matrix of the fresh coefficients. On the extended reals they are the same function of (c, r, λ); they
  differ only in how they reach the radius r: the kernel sums the absolute values of all 4096 entries of the row and takes
  the centre's away, the reference sums the 4095 coefficients'. For a row of real numbers (|x₀| + S) - |x₀| = S, so under
  the precondition that every input is finite the two radii, and with them the two results, agree; at an infinite entry
  they would not, and this is the one place where the precondition is used.

  The kernel's value is read off its generated frame run block by block (each grid point writes rows 256·t .. 256·t + 255,
  and the blocks cover the array); the reference's run is read operation by operation. The frames of the two kernel
  programs are the generated ones, the reference's frame is its run with the result forgotten, and the idealization
  rewrote nothing, so there is nothing to preserve.
-/
import proofs.«104700_j43525198577802_2_alg».proof.Defs
import proofs.«104700_j43525198577802_2_alg».proof.Proof.Gen.Kernel
import proofs.«104700_j43525198577802_2_alg».proof.Proof.Gen.Kernel.Skeleton
import proofs.«104700_j43525198577802_2_alg».proof.Proof.Gen.Kernel.Launch
import proofs.«104700_j43525198577802_2_alg».proof.Proof.Gen.Kernel.Points
import proofs.«104700_j43525198577802_2_alg».proof.Proof.Gen.Kernel.Frame
import proofs.«104700_j43525198577802_2_alg».proof.Proof.Gen.KernelIdeal
import proofs.«104700_j43525198577802_2_alg».proof.Proof.Gen.KernelIdeal.Skeleton
import proofs.«104700_j43525198577802_2_alg».proof.Proof.Gen.KernelIdeal.Launch
import proofs.«104700_j43525198577802_2_alg».proof.Proof.Gen.KernelIdeal.Points
import proofs.«104700_j43525198577802_2_alg».proof.Proof.Gen.KernelIdeal.Frame
import proofs.«104700_j43525198577802_2_alg».proof.Proof.Gen.ReferenceIdeal
import proofs.«104700_j43525198577802_2_alg».proof.Proof.Gen.Pre_finite_inputs
import proofs.«104700_j43525198577802_2_alg».proof.Proof.KernelValue
import proofs.«104700_j43525198577802_2_alg».proof.Proof.Finite
import proofs.«104700_j43525198577802_2_alg».proof.Proof.RefFinal
import Idealize.ShloMosaic.Adequacy
import Idealize.ShloMosaic.Init

noncomputable section

namespace Cert.Proof

open Idealize.ShloMosaic Idealize.ShloMosaic.TcCoe Idealize.SL.Sem

/-- The word-level kernel runs and leaves its arguments as they were: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.RefValue.run m ρ)

/-- The idealization rewrote nothing. -/
theorem preserves : Cert.preserves_Kernel_KernelIdeal := trivial

/-- From memories that agree on the two arguments, finite in the kernel's, both programs end with the specification's
    array: the kernel's with the radius as all absolute values less the centre's, the reference's with the radius as the
    coefficients' sum, which are one function on real rows. -/
theorem algebraic : Cert.algebraic_KernelIdeal_ReferenceIdeal := by
  intro m ρ m' ρ' hpre hagree
  refine ⟨_, Cert.KernelIdeal.Final.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2]
  exact congrArg (fun rad => Cert.Zono.out rad _ _)
    (Cert.Zono.radK_eq_radR _ (Cert.Finite.real_of_pre _ _ (hpre c))).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
